-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S2048x904 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x904 : Shape := ⟨2, ![131072, 904]⟩
abbrev S400x904 : Shape := ⟨2, ![400, 904]⟩
abbrev S400x100 : Shape := ⟨2, ![400, 100]⟩
abbrev S400 : Shape := ⟨1, ![400]⟩
abbrev S_ : Shape := ⟨0, ![]⟩

class Facts : Prop where
  bcast_S_S131072x904 : S_.BroadcastsInDim S131072x904 (![] : Fin 0 → Fin S131072x904.rank)
  reducesTo_S131072x904_S_d0_1 : S131072x904.ReducesTo [0, 1] S_
  h_S_ : 0 < S_.numel
  bcast_S_S400x904 : S_.BroadcastsInDim S400x904 (![] : Fin 0 → Fin S400x904.rank)
  reducesTo_S400x904_S_d0_1 : S400x904.ReducesTo [0, 1] S_
  bcast_S_S400x100 : S_.BroadcastsInDim S400x100 (![] : Fin 0 → Fin S400x100.rank)
  reducesTo_S400x100_S_d0_1 : S400x100.ReducesTo [0, 1] S_
  bcast_S_S400 : S_.BroadcastsInDim S400 (![] : Fin 0 → Fin S400.rank)
  reducesTo_S400_S_d0 : S400.ReducesTo [0] S_

variable [Facts]

def fn_part2 {F : FTy → Type} [FloatOps F] (main_arg7 : FVec F S400 .f32) (main_arg8 : FVec F S400 .f32) (main_v33 : IVec S_ 1) : IVec S_ 1 :=
  let main_v34 : FVec F S400 .f32 := Host.absf main_arg7
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  let main_v39 : FVec F S400 .f32 := Host.absf main_arg8
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  main_v43

def fn_part1 {F : FTy → Type} [FloatOps F] (main_arg4 : FVec F S400 .f32) (main_arg5 : FVec F S400x904 .f32) (main_arg6 : FVec F S400x100 .f32) (main_arg7 : FVec F S400 .f32) (main_arg8 : FVec F S400 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400 .f32 := Host.absf main_arg4
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x904 .f32 := Host.absf main_arg5
  let main_cst_8 : FVec F S_ .f32 := constant S_ .f32 0x7F800000#32
  let main_v25 : FVec F S400x904 .f32 := broadcastInDim S400x904 ![] bcast_S_S400x904 main_cst_8
  let main_v26 : IVec S400x904 1 := cmpf .olt main_v24 main_v25
  let main_c_9 : IVec S_ 1 := constantI S_ 1 1#1
  let main_v27 : IVec S_ 1 := (fun x v => Host.reduce IntOp.andi x v reducesTo_S400x904_S_d0_1 h_S_) main_v26 main_c_9
  let main_v28 : IVec S_ 1 := andi main_v23 main_v27
  let main_v29 : FVec F S400x100 .f32 := Host.absf main_arg6
  let main_cst_10 : FVec F S_ .f32 := constant S_ .f32 0x7F800000#32
  let main_v30 : FVec F S400x100 .f32 := broadcastInDim S400x100 ![] bcast_S_S400x100 main_cst_10
  let main_v31 : IVec S400x100 1 := cmpf .olt main_v29 main_v30
  let main_c_11 : IVec S_ 1 := constantI S_ 1 1#1
  let main_v32 : IVec S_ 1 := (fun x v => Host.reduce IntOp.andi x v reducesTo_S400x100_S_d0_1 h_S_) main_v31 main_c_11
  let main_v33 : IVec S_ 1 := andi main_v28 main_v32
  fn_part2 (F := F) main_arg7 main_arg8 main_v33

def fn {F : FTy → Type} [FloatOps F] (main_arg0 : FVec F S131072x904 .f32) (main_arg1 : FVec F S400x904 .f32) (main_arg2 : FVec F S400x100 .f32) (main_arg3 : FVec F S400 .f32) (main_arg4 : FVec F S400 .f32) (main_arg5 : FVec F S400x904 .f32) (main_arg6 : FVec F S400x100 .f32) (main_arg7 : FVec F S400 .f32) (main_arg8 : FVec F S400 .f32) : IVec S_ 1 :=
  let main_v0 : FVec F S131072x904 .f32 := Host.absf main_arg0
  let main_cst : FVec F S_ .f32 := constant S_ .f32 0x7F800000#32
  let main_v1 : FVec F S131072x904 .f32 := broadcastInDim S131072x904 ![] bcast_S_S131072x904 main_cst
  let main_v2 : IVec S131072x904 1 := cmpf .olt main_v0 main_v1
  let main_c : IVec S_ 1 := constantI S_ 1 1#1
  let main_v3 : IVec S_ 1 := (fun x v => Host.reduce IntOp.andi x v reducesTo_S131072x904_S_d0_1 h_S_) main_v2 main_c
  let main_v4 : FVec F S400x904 .f32 := Host.absf main_arg1
  let main_cst_0 : FVec F S_ .f32 := constant S_ .f32 0x7F800000#32
  let main_v5 : FVec F S400x904 .f32 := broadcastInDim S400x904 ![] bcast_S_S400x904 main_cst_0
  let main_v6 : IVec S400x904 1 := cmpf .olt main_v4 main_v5
  let main_c_1 : IVec S_ 1 := constantI S_ 1 1#1
  let main_v7 : IVec S_ 1 := (fun x v => Host.reduce IntOp.andi x v reducesTo_S400x904_S_d0_1 h_S_) main_v6 main_c_1
  let main_v8 : IVec S_ 1 := andi main_v3 main_v7
  let main_v9 : FVec F S400x100 .f32 := Host.absf main_arg2
  let main_cst_2 : FVec F S_ .f32 := constant S_ .f32 0x7F800000#32
  let main_v10 : FVec F S400x100 .f32 := broadcastInDim S400x100 ![] bcast_S_S400x100 main_cst_2
  let main_v11 : IVec S400x100 1 := cmpf .olt main_v9 main_v10
  let main_c_3 : IVec S_ 1 := constantI S_ 1 1#1
  let main_v12 : IVec S_ 1 := (fun x v => Host.reduce IntOp.andi x v reducesTo_S400x100_S_d0_1 h_S_) main_v11 main_c_3
  let main_v13 : IVec S_ 1 := andi main_v8 main_v12
  let main_v14 : FVec F S400 .f32 := Host.absf main_arg3
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg4 main_arg5 main_arg6 main_arg7 main_arg8 main_v13 main_v16
-- ==== Kernel.lean ====
abbrev S131072x904 : Shape := ⟨2, ![131072, 904]⟩
abbrev S400x904 : Shape := ⟨2, ![400, 904]⟩
abbrev S400x100 : Shape := ⟨2, ![400, 100]⟩
abbrev S400 : Shape := ⟨1, ![400]⟩
abbrev S_ : Shape := ⟨0, ![]⟩
abbrev S904x768 : Shape := ⟨2, ![904, 768]⟩
abbrev S100x904 : Shape := ⟨2, ![100, 904]⟩
abbrev S904x100 : Shape := ⟨2, ![904, 100]⟩
abbrev S1 : Shape := ⟨1, ![1]⟩
abbrev S4x100 : Shape := ⟨2, ![4, 100]⟩
abbrev S1x768 : Shape := ⟨2, ![1, 768]⟩
abbrev S1x100 : Shape := ⟨2, ![1, 100]⟩
abbrev S100 : Shape := ⟨1, ![100]⟩
abbrev S2 : Shape := ⟨1, ![2]⟩
abbrev S131072x200 : Shape := ⟨2, ![131072, 200]⟩
abbrev S2048x904 : Shape := ⟨2, ![2048, 904]⟩
abbrev S2048x200 : Shape := ⟨2, ![2048, 200]⟩
abbrev S2048x768 : Shape := ⟨2, ![2048, 768]⟩
abbrev S2048x100 : Shape := ⟨2, ![2048, 100]⟩

abbrev nBuf : Space → Nat
  | .hbm => 100
  | .vmem => 7
  | .smem => 0
  | _ => 0

abbrev bufTy : (tb : Table) → Fin (tcTables nBuf tb) → BufTy
  | .hbm, ⟨0, _⟩ => ⟨S131072x904, .f32⟩
  | .hbm, ⟨1, _⟩ => ⟨S400x904, .f32⟩
  | .hbm, ⟨2, _⟩ => ⟨S400x100, .f32⟩
  | .hbm, ⟨3, _⟩ => ⟨S400, .f32⟩
  | .hbm, ⟨4, _⟩ => ⟨S400, .f32⟩
  | .hbm, ⟨5, _⟩ => ⟨S400x904, .f32⟩
  | .hbm, ⟨6, _⟩ => ⟨S400x100, .f32⟩
  | .hbm, ⟨7, _⟩ => ⟨S400, .f32⟩
  | .hbm, ⟨8, _⟩ => ⟨S400, .f32⟩
  | .hbm, ⟨9, _⟩ => ⟨S_, .f32⟩
  | .hbm, ⟨10, _⟩ => ⟨S904x768, .f32⟩
  | .hbm, ⟨11, _⟩ => ⟨S100x904, .f32⟩
  | .hbm, ⟨12, _⟩ => ⟨S904x100, .f32⟩
  | .hbm, ⟨13, _⟩ => ⟨S_, .i32⟩
  | .hbm, ⟨14, _⟩ => ⟨S1, .i32⟩
  | .hbm, ⟨15, _⟩ => ⟨S904x768, .f32⟩
  | .hbm, ⟨16, _⟩ => ⟨S100x904, .f32⟩
  | .hbm, ⟨17, _⟩ => ⟨S904x100, .f32⟩
  | .hbm, ⟨18, _⟩ => ⟨S_, .i32⟩
  | .hbm, ⟨19, _⟩ => ⟨S1, .i32⟩
  | .hbm, ⟨20, _⟩ => ⟨S904x768, .f32⟩
  | .hbm, ⟨21, _⟩ => ⟨S100x904, .f32⟩
  | .hbm, ⟨22, _⟩ => ⟨S904x100, .f32⟩
  | .hbm, ⟨23, _⟩ => ⟨S_, .i32⟩
  | .hbm, ⟨24, _⟩ => ⟨S1, .i32⟩
  | .hbm, ⟨25, _⟩ => ⟨S904x768, .f32⟩
  | .hbm, ⟨26, _⟩ => ⟨S100x904, .f32⟩
  | .hbm, ⟨27, _⟩ => ⟨S904x100, .f32⟩
  | .hbm, ⟨28, _⟩ => ⟨S_, .i32⟩
  | .hbm, ⟨29, _⟩ => ⟨S1, .i32⟩
  | .hbm, ⟨30, _⟩ => ⟨S904x768, .f32⟩
  | .hbm, ⟨31, _⟩ => ⟨S100x904, .f32⟩
  | .hbm, ⟨32, _⟩ => ⟨S904x100, .f32⟩
  | .hbm, ⟨33, _⟩ => ⟨S_, .i32⟩
  | .hbm, ⟨34, _⟩ => ⟨S1, .i32⟩
  | .hbm, ⟨35, _⟩ => ⟨S904x768, .f32⟩
  | .hbm, ⟨36, _⟩ => ⟨S100x904, .f32⟩
  | .hbm, ⟨37, _⟩ => ⟨S904x100, .f32⟩
  | .hbm, ⟨38, _⟩ => ⟨S_, .i32⟩
  | .hbm, ⟨39, _⟩ => ⟨S1, .i32⟩
  | .hbm, ⟨40, _⟩ => ⟨S904x768, .f32⟩
  | .hbm, ⟨41, _⟩ => ⟨S400, .f32⟩
  | .hbm, ⟨42, _⟩ => ⟨S4x100, .f32⟩
  | .hbm, ⟨43, _⟩ => ⟨S400, .f32⟩
  | .hbm, ⟨44, _⟩ => ⟨S4x100, .f32⟩
  | .hbm, ⟨45, _⟩ => ⟨S_, .f32⟩
  | .hbm, ⟨46, _⟩ => ⟨S1x768, .f32⟩
  | .hbm, ⟨47, _⟩ => ⟨S1x100, .f32⟩
  | .hbm, ⟨48, _⟩ => ⟨S100, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S1x768, .f32⟩
  | .hbm, ⟨55, _⟩ => ⟨S1x100, .f32⟩
  | .hbm, ⟨56, _⟩ => ⟨S100, .f32⟩
  | .hbm, ⟨57, _⟩ => ⟨S_, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S2, .i32⟩
  | .hbm, ⟨62, _⟩ => ⟨S1x768, .f32⟩
  | .hbm, ⟨63, _⟩ => ⟨S1x100, .f32⟩
  | .hbm, ⟨64, _⟩ => ⟨S100, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S1x768, .f32⟩
  | .hbm, ⟨71, _⟩ => ⟨S1x100, .f32⟩
  | .hbm, ⟨72, _⟩ => ⟨S100, .f32⟩
  | .hbm, ⟨73, _⟩ => ⟨S_, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S2, .i32⟩
  | .hbm, ⟨78, _⟩ => ⟨S1x768, .f32⟩
  | .hbm, ⟨79, _⟩ => ⟨S1x100, .f32⟩
  | .hbm, ⟨80, _⟩ => ⟨S100, .f32⟩
  | .hbm, ⟨81, _⟩ => ⟨S_, .i32⟩
  | .hbm, ⟨82, _⟩ => ⟨S1, .i32⟩
  | .hbm, ⟨83, _⟩ => ⟨S_, .i32⟩
  | .hbm, ⟨84, _⟩ => ⟨S1, .i32⟩
  | .hbm, ⟨85, _⟩ => ⟨S2, .i32⟩
  | .hbm, ⟨86, _⟩ => ⟨S1x768, .f32⟩
  | .hbm, ⟨87, _⟩ => ⟨S1x100, .f32⟩
  | .hbm, ⟨88, _⟩ => ⟨S100, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S1x768, .f32⟩
  | .hbm, ⟨95, _⟩ => ⟨S904x768, .bf16⟩
  | .hbm, ⟨96, _⟩ => ⟨S904x768, .f32⟩
  | .hbm, ⟨97, _⟩ => ⟨S904x768, .f32⟩
  | .hbm, ⟨98, _⟩ => ⟨S904x768, .bf16⟩
  | .hbm, ⟨99, _⟩ => ⟨S131072x200, .f32⟩
  | .local _ .vmem, ⟨0, _⟩ => ⟨S2048x904, .f32⟩
  | .local _ .vmem, ⟨1, _⟩ => ⟨S2048x904, .f32⟩
  | .local _ .vmem, ⟨2, _⟩ => ⟨S904x768, .bf16⟩
  | .local _ .vmem, ⟨3, _⟩ => ⟨S904x768, .bf16⟩
  | .local _ .vmem, ⟨4, _⟩ => ⟨S1x768, .f32⟩
  | .local _ .vmem, ⟨5, _⟩ => ⟨S2048x200, .f32⟩
  | .local _ .vmem, ⟨6, _⟩ => ⟨S2048x200, .f32⟩
  | _, _ => ⟨S131072x904, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_12 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_14 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_v62 : Ref sig .tc := ⟨.hbm, 90, rfl⟩
abbrev main_c_17 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x904 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S904x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S904x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S904x768 : S_.BroadcastsInDim S904x768 (![] : Fin 0 → Fin S904x768.rank)
  slices_S400x904_S100x904_0_0 : S400x904.Slices ![0, 0] S100x904
  transposes_S100x904_S904x100_1_0 : S100x904.Transposes [1, 0] S904x100
  bcast_S_S1 : S_.BroadcastsInDim S1 (![] : Fin 0 → Fin S1.rank)
  slices_S400x904_S100x904_200_0 : S400x904.Slices ![200, 0] S100x904
  slices_S400x904_S100x904_300_0 : S400x904.Slices ![300, 0] S100x904
  shapeCasts_S400_S4x100 : S400.ShapeCasts S4x100
  bcast_S_S1x768 : S_.BroadcastsInDim S1x768 (![] : Fin 0 → Fin S1x768.rank)
  slices_S4x100_S1x100_0_0 : S4x100.Slices ![0, 0] S1x100
  shapeCasts_S1x100_S100 : S1x100.ShapeCasts S100
  concatenates_S1_S1_S2_d0 : Shape.Concatenates [S1, S1] S2 0
  slices_S4x100_S1x100_2_0 : S4x100.Slices ![2, 0] S1x100
  slices_S4x100_S1x100_3_0 : S4x100.Slices ![3, 0] S1x100
  bitsLt_bf16_f32 : FTy.bits .bf16 < FTy.bits .f32
  inb_S2048x904_S2048x904_0_0 : ∀ a, (![0, 0] : Fin 2 → Nat) a + S2048x904.size a ≤ S2048x904.size a
  h_S2048x904 : 0 < S2048x904.numel
  inb_S904x768_S904x768_0_0 : ∀ a, (![0, 0] : Fin 2 → Nat) a + S904x768.size a ≤ S904x768.size a
  h_S904x768 : 0 < S904x768.numel
  shapeCasts_S904x768_S904x768 : S904x768.ShapeCasts S904x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x100 : S2048x768.Slices ![0, 0] S2048x100
  slices_S2048x768_o0_128_S2048x100 : S2048x768.Slices ![0, 128] S2048x100
  slices_S2048x768_o0_256_S2048x100 : S2048x768.Slices ![0, 256] S2048x100
  slices_S2048x768_o0_384_S2048x100 : S2048x768.Slices ![0, 384] S2048x100
  slices_S2048x768_o0_512_S2048x100 : S2048x768.Slices ![0, 512] S2048x100
  slices_S2048x768_o0_640_S2048x100 : S2048x768.Slices ![0, 640] S2048x100
  concatenates_S2048x100_S2048x100_S2048x200_d1 : Shape.Concatenates [S2048x100, S2048x100] S2048x200 1
  inb_S2048x200_S2048x200_0_0 : ∀ a, (![0, 0] : Fin 2 → Nat) a + S2048x200.size a ≤ S2048x200.size a
  h_S2048x200 : 0 < S2048x200.numel
  scatter_S904x768_S1_S904x100_01_n_1_0_wf : ScatterDims.WF S904x768 S1 S904x100 [0, 1] [] [1] 0
  scatter_S1x768_S2_S100_0_0_01_0_wf : ScatterDims.WF S1x768 S2 S100 [0] [0] [0, 1] 0
  dot_S2048x904_S904x768_S2048x768_1_0_0_1_n_n_wf : DotDims.WF S2048x904 S904x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x904.size a ≤ S131072x904.size a
  hwx0_0 : ∀ i : grid0.Coords, EltTy.bits .f32 = 32 ∨ (Rect.block (s := S131072x904) S2048x904.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S904x768.size a ≤ S904x768.size a
  hwx0_1 : ∀ i : grid0.Coords, EltTy.bits .bf16 = 32 ∨ (Rect.block (s := S904x768) S904x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S904x768.size a ≤ S904x768.size a
  hwx0_2 : ∀ i : grid0.Coords, EltTy.bits .bf16 = 32 ∨ (Rect.block (s := S904x768) S904x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x200.size a ≤ S131072x200.size a
  hwx0_4 : ∀ i : grid0.Coords, EltTy.bits .f32 = 32 ∨ (Rect.block (s := S131072x200) S2048x200.size (cc0_transform_4 i) (hinb0_4 i)).WholeWords (EltTy.packing .f32)

variable [Facts₀]

def scatter_S904x768_S1_S904x100_01_n_1_0 : ScatterDims S904x768 S1 S904x100 where
  updateWindowDims := [0, 1]
  insertedWindowDims := []
  scatterDimsToOperandDims := [1]
  indexVectorDim := 0
  wf := scatter_S904x768_S1_S904x100_01_n_1_0_wf
def scatter_S1x768_S2_S100_0_0_01_0 : ScatterDims S1x768 S2 S100 where
  updateWindowDims := [0]
  insertedWindowDims := [0]
  scatterDimsToOperandDims := [0, 1]
  indexVectorDim := 0
  wf := scatter_S1x768_S2_S100_0_0_01_0_wf
def dot_S2048x904_S904x768_S2048x768_1_0_0_1_n_n : DotDims S2048x904 S904x768 S2048x768 where
  lhsContracting := [1]
  rhsContracting := [0]
  lhsNonContracting := [0]
  rhsNonContracting := [1]
  lhsBatch := []
  rhsBatch := []
  wf := dot_S2048x904_S904x768_S2048x768_1_0_0_1_n_n_wf

abbrev win0_0 : Pipeline.Window sig grid0 :=
  Pipeline.Window.ofSpec (Memref.whole main_arg0) S2048x904.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S904x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S904x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S2048x200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x904 : Shape := ⟨2, ![131072, 904]⟩
abbrev S400x904 : Shape := ⟨2, ![400, 904]⟩
abbrev S400x100 : Shape := ⟨2, ![400, 100]⟩
abbrev S400 : Shape := ⟨1, ![400]⟩
abbrev S904x400 : Shape := ⟨2, ![904, 400]⟩
abbrev S131072x400 : Shape := ⟨2, ![131072, 400]⟩
abbrev S1x400 : Shape := ⟨2, ![1, 400]⟩
abbrev S131072x100 : Shape := ⟨2, ![131072, 100]⟩
abbrev S_ : Shape := ⟨0, ![]⟩
abbrev S131072x200 : Shape := ⟨2, ![131072, 200]⟩

abbrev nBuf : Space → Nat
  | .hbm => 74
  | .vmem => 0
  | .smem => 0
  | _ => 0

abbrev bufTy : (tb : Table) → Fin (tcTables nBuf tb) → BufTy
  | .hbm, ⟨0, _⟩ => ⟨S131072x904, .f32⟩
  | .hbm, ⟨1, _⟩ => ⟨S400x904, .f32⟩
  | .hbm, ⟨2, _⟩ => ⟨S400x100, .f32⟩
  | .hbm, ⟨3, _⟩ => ⟨S400, .f32⟩
  | .hbm, ⟨4, _⟩ => ⟨S400, .f32⟩
  | .hbm, ⟨5, _⟩ => ⟨S400x904, .f32⟩
  | .hbm, ⟨6, _⟩ => ⟨S400x100, .f32⟩
  | .hbm, ⟨7, _⟩ => ⟨S400, .f32⟩
  | .hbm, ⟨8, _⟩ => ⟨S400, .f32⟩
  | .hbm, ⟨9, _⟩ => ⟨S904x400, .f32⟩
  | .hbm, ⟨10, _⟩ => ⟨S131072x400, .f32⟩
  | .hbm, ⟨11, _⟩ => ⟨S1x400, .f32⟩
  | .hbm, ⟨12, _⟩ => ⟨S131072x400, .f32⟩
  | .hbm, ⟨13, _⟩ => ⟨S131072x400, .f32⟩
  | .hbm, ⟨14, _⟩ => ⟨S1x400, .f32⟩
  | .hbm, ⟨15, _⟩ => ⟨S131072x400, .f32⟩
  | .hbm, ⟨16, _⟩ => ⟨S131072x400, .f32⟩
  | .hbm, ⟨17, _⟩ => ⟨S131072x100, .f32⟩
  | .hbm, ⟨18, _⟩ => ⟨S131072x100, .f32⟩
  | .hbm, ⟨19, _⟩ => ⟨S131072x100, .f32⟩
  | .hbm, ⟨20, _⟩ => ⟨S131072x100, .f32⟩
  | .hbm, ⟨21, _⟩ => ⟨S131072x100, .f32⟩
  | .hbm, ⟨22, _⟩ => ⟨S131072x100, .f32⟩
  | .hbm, ⟨23, _⟩ => ⟨S_, .f32⟩
  | .hbm, ⟨24, _⟩ => ⟨S131072x100, .f32⟩
  | .hbm, ⟨25, _⟩ => ⟨S131072x100, .f32⟩
  | .hbm, ⟨26, _⟩ => ⟨S_, .f32⟩
  | .hbm, ⟨27, _⟩ => ⟨S131072x100, .f32⟩
  | .hbm, ⟨28, _⟩ => ⟨S131072x100, .f32⟩
  | .hbm, ⟨29, _⟩ => ⟨S131072x100, .f32⟩
  | .hbm, ⟨30, _⟩ => ⟨S131072x100, .f32⟩
  | .hbm, ⟨31, _⟩ => ⟨S131072x100, .f32⟩
  | .hbm, ⟨32, _⟩ => ⟨S_, .f32⟩
  | .hbm, ⟨33, _⟩ => ⟨S131072x100, .f32⟩
  | .hbm, ⟨34, _⟩ => ⟨S131072x100, .f32⟩
  | .hbm, ⟨35, _⟩ => ⟨S_, .f32⟩
  | .hbm, ⟨36, _⟩ => ⟨S131072x100, .f32⟩
  | .hbm, ⟨37, _⟩ => ⟨S131072x100, .f32⟩
  | .hbm, ⟨38, _⟩ => ⟨S131072x100, .f32⟩
  | .hbm, ⟨39, _⟩ => ⟨S131072x100, .f32⟩
  | .hbm, ⟨40, _⟩ => ⟨S131072x100, .f32⟩
  | .hbm, ⟨41, _⟩ => ⟨S904x400, .f32⟩
  | .hbm, ⟨42, _⟩ => ⟨S131072x400, .f32⟩
  | .hbm, ⟨43, _⟩ => ⟨S1x400, .f32⟩
  | .hbm, ⟨44, _⟩ => ⟨S131072x400, .f32⟩
  | .hbm, ⟨45, _⟩ => ⟨S131072x400, .f32⟩
  | .hbm, ⟨46, _⟩ => ⟨S1x400, .f32⟩
  | .hbm, ⟨47, _⟩ => ⟨S131072x400, .f32⟩
  | .hbm, ⟨48, _⟩ => ⟨S131072x400, .f32⟩
  | .hbm, ⟨49, _⟩ => ⟨S131072x100, .f32⟩
  | .hbm, ⟨50, _⟩ => ⟨S131072x100, .f32⟩
  | .hbm, ⟨51, _⟩ => ⟨S131072x100, .f32⟩
  | .hbm, ⟨52, _⟩ => ⟨S131072x100, .f32⟩
  | .hbm, ⟨53, _⟩ => ⟨S131072x100, .f32⟩
  | .hbm, ⟨54, _⟩ => ⟨S131072x100, .f32⟩
  | .hbm, ⟨55, _⟩ => ⟨S_, .f32⟩
  | .hbm, ⟨56, _⟩ => ⟨S131072x100, .f32⟩
  | .hbm, ⟨57, _⟩ => ⟨S131072x100, .f32⟩
  | .hbm, ⟨58, _⟩ => ⟨S_, .f32⟩
  | .hbm, ⟨59, _⟩ => ⟨S131072x100, .f32⟩
  | .hbm, ⟨60, _⟩ => ⟨S131072x100, .f32⟩
  | .hbm, ⟨61, _⟩ => ⟨S131072x100, .f32⟩
  | .hbm, ⟨62, _⟩ => ⟨S131072x100, .f32⟩
  | .hbm, ⟨63, _⟩ => ⟨S131072x100, .f32⟩
  | .hbm, ⟨64, _⟩ => ⟨S_, .f32⟩
  | .hbm, ⟨65, _⟩ => ⟨S131072x100, .f32⟩
  | .hbm, ⟨66, _⟩ => ⟨S131072x100, .f32⟩
  | .hbm, ⟨67, _⟩ => ⟨S_, .f32⟩
  | .hbm, ⟨68, _⟩ => ⟨S131072x100, .f32⟩
  | .hbm, ⟨69, _⟩ => ⟨S131072x100, .f32⟩
  | .hbm, ⟨70, _⟩ => ⟨S131072x100, .f32⟩
  | .hbm, ⟨71, _⟩ => ⟨S131072x100, .f32⟩
  | .hbm, ⟨72, _⟩ => ⟨S131072x100, .f32⟩
  | .hbm, ⟨73, _⟩ => ⟨S131072x200, .f32⟩
  | _, _ => ⟨S131072x904, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  transposes_S400x904_S904x400_1_0 : S400x904.Transposes [1, 0] S904x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  slices_S131072x400_S131072x100_0_0 : S131072x400.Slices ![0, 0] S131072x100
  slices_S131072x400_S131072x100_0_100 : S131072x400.Slices ![0, 100] S131072x100
  slices_S131072x400_S131072x100_0_200 : S131072x400.Slices ![0, 200] S131072x100
  slices_S131072x400_S131072x100_0_300 : S131072x400.Slices ![0, 300] S131072x100
  bcast_S_S131072x100 : S_.BroadcastsInDim S131072x100 (![] : Fin 0 → Fin S131072x100.rank)
  concatenates_S131072x100_S131072x100_S131072x200_d1 : Shape.Concatenates [S131072x100, S131072x100] S131072x200 1
  dot_S131072x904_S904x400_S131072x400_1_0_0_1_n_n_wf : DotDims.WF S131072x904 S904x400 S131072x400 [1] [0] [0] [1] [] []

variable [Facts₀]

def dot_S131072x904_S904x400_S131072x400_1_0_0_1_n_n : DotDims S131072x904 S904x400 S131072x400 where
  lhsContracting := [1]
  rhsContracting := [0]
  lhsNonContracting := [0]
  rhsNonContracting := [1]
  lhsBatch := []
  rhsBatch := []
  wf := dot_S131072x904_S904x400_S131072x400_1_0_0_1_n_n_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Body.lean ====
/-
  The kernel body's stored block, read at one entry.

  The body forms the fused gate pre-activations of its 2048 input rows — three products of the row block (and of
  its low part x - x) with the two weight blocks, summed, plus the bias row — and from the 100 used columns of each
  of the six 128-wide slots the two directions' hidden values, forward in columns [0,100), backward in [100,200).
-/
import proofs.«156096_j54924041781763_2_alg».proof.Proof.Gen.KernelIdeal.Skeleton
import proofs.«156096_j54924041781763_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The dimension numbers contract the left operand's second axis with the right operand's first. -/
theorem dot_L0 (j : S2048x768.Idx) (q : dot_S2048x904_S904x768_S2048x768_1_0_0_1_n_n.contr.Idx) :
    (dot_S2048x904_S904x768_S2048x768_1_0_0_1_n_n.lhsIdx j q 0).val = (j 0).val := by
  unfold DotDims.lhsIdx
  rw [dif_neg (show ¬(0 : Fin S2048x904.rank) ∈ dot_S2048x904_S904x768_S2048x768_1_0_0_1_n_n.lhsBatch by decide), dif_pos (show (0 : Fin S2048x904.rank) ∈ dot_S2048x904_S904x768_S2048x768_1_0_0_1_n_n.lhsNonContracting by decide)]
  rfl

theorem dot_R1 (j : S2048x768.Idx) (q : dot_S2048x904_S904x768_S2048x768_1_0_0_1_n_n.contr.Idx) :
    (dot_S2048x904_S904x768_S2048x768_1_0_0_1_n_n.rhsIdx j q 1).val = (j 1).val := by
  unfold DotDims.rhsIdx
  rw [dif_neg (show ¬(1 : Fin S904x768.rank) ∈ dot_S2048x904_S904x768_S2048x768_1_0_0_1_n_n.rhsBatch by decide), dif_pos (show (1 : Fin S904x768.rank) ∈ dot_S2048x904_S904x768_S2048x768_1_0_0_1_n_n.rhsNonContracting by decide)]
  rfl

/-- A product of a 2048 x 904 block with a 904 x 768 block into the zero accumulator, at an entry. -/
theorem mm_at (l : FVec Ideal S2048x904 .bf16) (r : FVec Ideal S904x768 .bf16) (p : Fin 2048) (col : Fin 768) :
    matmul dot_S2048x904_S904x768_S2048x768_1_0_0_1_n_n none l r (constant S2048x768 .f32 0x00000000#32) (ix2 p col)
      = ∑ k : Fin 904, l (ix2 p k) * r (ix2 k col) :=
  Cert.LibPlainDot.matmul_zero_apply (M := 2048) (K := 904) (N := 768) dot_S2048x904_S904x768_S2048x768_1_0_0_1_n_n rfl rfl rfl rfl dot_L0 dot_R1 none l r p col

/-- The fused gate pre-activation at row `p`, column `col` of a block: the three partial products (the row, the
    row's low part x - x, against the high and low weight blocks) and the bias row. -/
def pre (x0 : Vec Ideal S2048x904 .f32) (x1 x2 : Vec Ideal S904x768 .bf16) (x3 : Vec Ideal S1x768 .f32) (p : Fin 2048) (col : Fin 768) : EReal :=
  (((∑ k : Fin 904, x0 (ix2 p k) * x1 (ix2 k col)) + (∑ k : Fin 904, x0 (ix2 p k) * x2 (ix2 k col)))
    + (∑ k : Fin 904, (x0 (ix2 p k) - x0 (ix2 p k)) * x1 (ix2 k col))) + x3 (ix2 (0 : Fin 1) col)

/-- The block of fused gate pre-activations, as the body computes it. -/
def gatesBlock (v0 : Vec Ideal S2048x904 .f32) (v5 v7 : Vec Ideal S904x768 .bf16) (v9 : Vec Ideal S1x768 .f32) : FVec Ideal S2048x768 .f32 :=
  have v1 : FVec Ideal S2048x904 .bf16 := truncf .bf16 v0 bitsLt_bf16_f32
  have v3 : FVec Ideal S2048x904 .f32 := subf v0 v0
  have v4 : FVec Ideal S2048x904 .bf16 := truncf .bf16 v3 bitsLt_bf16_f32
  have v6 : FVec Ideal S904x768 .bf16 := shapeCast S904x768 v5 shapeCasts_S904x768_S904x768
  have v8 : FVec Ideal S904x768 .bf16 := shapeCast S904x768 v7 shapeCasts_S904x768_S904x768
  have v10 : FVec Ideal S1x768 .f32 := shapeCast S1x768 v9 shapeCasts_S1x768_S1x768
  have cst : FVec Ideal S2048x768 .f32 := constant S2048x768 .f32 0x00000000#32
  have v11 : FVec Ideal S2048x768 .f32 := matmul dot_S2048x904_S904x768_S2048x768_1_0_0_1_n_n none v1 v6 cst
  have v12 : FVec Ideal S2048x768 .f32 := matmul dot_S2048x904_S904x768_S2048x768_1_0_0_1_n_n none v1 v8 cst
  have v13 : FVec Ideal S2048x768 .f32 := addf v11 v12
  have v14 : FVec Ideal S2048x768 .f32 := matmul dot_S2048x904_S904x768_S2048x768_1_0_0_1_n_n none v4 v6 cst
  have v15 : FVec Ideal S2048x768 .f32 := addf v13 v14
  have v16 : FVec Ideal S2048x768 .f32 := broadcastTo S2048x768 v10 broadcasts_S1x768_S2048x768
  addf v15 v16

/-- The bias row broadcast down the block reads the row's entry in the same column. -/
theorem bias_bcast_at (v9 : FVec Ideal S1x768 .f32) (p : Fin 2048) (col : Fin 768) :
    broadcastTo S2048x768 v9 broadcasts_S1x768_S2048x768 (ix2 p col) = v9 (ix2 (0 : Fin 1) col) := by
  exact broadcastTo_apply v9 broadcasts_S1x768_S2048x768 (ix2 p col) (ix2 (0 : Fin 1) col) (fun a => by
    match a with
    | ⟨0, _⟩ => rfl
    | ⟨1, _⟩ => rfl)

/-- An entry of the block of pre-activations. -/
theorem gates_at (v0 : Vec Ideal S2048x904 .f32) (v5 v7 : Vec Ideal S904x768 .bf16) (v9 : Vec Ideal S1x768 .f32) (p : Fin 2048) (col : Fin 768) :
    gatesBlock v0 v5 v7 v9 (ix2 p col) = pre v0 v5 v7 v9 p col := by
  unfold gatesBlock pre
  rw [shapeCast_self, shapeCast_self, shapeCast_self]
  show ((matmul _ none _ _ _ (ix2 p col) + matmul _ none _ _ _ (ix2 p col)) + matmul _ none _ _ _ (ix2 p col)) + broadcastTo _ _ _ (ix2 p col) = _
  rw [mm_at, mm_at, mm_at, bias_bcast_at]
  rfl

/-- A 100-column slice of the block of pre-activations starting at column `off`. -/
theorem slice_at (off : Nat) (G : FVec Ideal S2048x768 .f32) (h : S2048x768.Slices ![0, off] S2048x100) (p : Fin 2048) (q : Fin 100)
    (hlt : off + q.val < 768) :
    extractStridedSlice S2048x100 ![0, off] G h (ix2 p q) = G (ix2 p ⟨off + q.val, hlt⟩) :=
  extractStridedSlice_apply _ G h (ix2 p q) (ix2 p ⟨off + q.val, hlt⟩) (fun a => by
    match a with
    | ⟨0, _⟩ => exact (Nat.zero_add _).symm
    | ⟨1, _⟩ => rfl)

/-- One direction's hidden values out of the block of pre-activations, its input, cell and output gates in the
    slots at columns `oi`, `og`, `oo`. -/
def hid (oi og oo : Nat) (G : FVec Ideal S2048x768 .f32) (hi : S2048x768.Slices ![0, oi] S2048x100)
    (hg : S2048x768.Slices ![0, og] S2048x100) (ho : S2048x768.Slices ![0, oo] S2048x100) : FVec Ideal S2048x100 .f32 :=
  mulf (logistic (extractStridedSlice S2048x100 ![0, oo] G ho))
    (tanh (mulf (logistic (extractStridedSlice S2048x100 ![0, oi] G hi)) (tanh (extractStridedSlice S2048x100 ![0, og] G hg))))

theorem hid_at (oi og oo : Nat) (G : FVec Ideal S2048x768 .f32) (hi : S2048x768.Slices ![0, oi] S2048x100)
    (hg : S2048x768.Slices ![0, og] S2048x100) (ho : S2048x768.Slices ![0, oo] S2048x100) (p : Fin 2048) (q : Fin 100)
    (hli : oi + q.val < 768) (hlg : og + q.val < 768) (hlo : oo + q.val < 768) :
    hid oi og oo G hi hg ho (ix2 p q)
      = Ideal.logistic (G (ix2 p ⟨oo + q.val, hlo⟩))
          * Ideal.tanh (Ideal.logistic (G (ix2 p ⟨oi + q.val, hli⟩)) * Ideal.tanh (G (ix2 p ⟨og + q.val, hlg⟩))) := by
  show Ideal.logistic (extractStridedSlice S2048x100 ![0, oo] G ho (ix2 p q))
      * Ideal.tanh (Ideal.logistic (extractStridedSlice S2048x100 ![0, oi] G hi (ix2 p q)) * Ideal.tanh (extractStridedSlice S2048x100 ![0, og] G hg (ix2 p q))) = _
  rw [slice_at oo G ho p q hlo, slice_at oi G hi p q hli, slice_at og G hg p q hlg]

/-- The stored block is the two directions' hidden values side by side. -/
theorem pay_eq (v0 : Vec Ideal S2048x904 .f32) (v5 v7 : Vec Ideal S904x768 .bf16) (v9 : Vec Ideal S1x768 .f32) :
    k0_pay1 v0 v5 v7 v9 = concatenate S2048x200 1
      [⟨S2048x100, hid 0 128 256 (gatesBlock v0 v5 v7 v9) slices_S2048x768_o0_0_S2048x100 slices_S2048x768_o0_128_S2048x100 slices_S2048x768_o0_256_S2048x100⟩,
       ⟨S2048x100, hid 384 512 640 (gatesBlock v0 v5 v7 v9) slices_S2048x768_o0_384_S2048x100 slices_S2048x768_o0_512_S2048x100 slices_S2048x768_o0_640_S2048x100⟩]
      concatenates_S2048x100_S2048x100_S2048x200_d1 := rfl

/-- The stored block at a forward column. -/
theorem pay_fwd (v0 : Vec Ideal S2048x904 .f32) (v5 v7 : Vec Ideal S904x768 .bf16) (v9 : Vec Ideal S1x768 .f32) (p : Fin 2048) (q : Fin 100) :
    k0_pay1 v0 v5 v7 v9 (ix2 p ⟨q.val, by have := q.isLt; omega⟩)
      = Ideal.logistic (pre v0 v5 v7 v9 p ⟨256 + q.val, by have := q.isLt; omega⟩)
          * Ideal.tanh (Ideal.logistic (pre v0 v5 v7 v9 p ⟨q.val, by have := q.isLt; omega⟩)
              * Ideal.tanh (pre v0 v5 v7 v9 p ⟨128 + q.val, by have := q.isLt; omega⟩)) := by
  have e0 : (⟨0 + q.val, by have := q.isLt; omega⟩ : Fin 768) = ⟨q.val, by have := q.isLt; omega⟩ := Fin.ext (Nat.zero_add _)
  rw [← e0, pay_eq]
  refine (concatenate_pair_apply_left 1 _ _ concatenates_S2048x100_S2048x100_S2048x200_d1 _ rfl (ix2 p q) (fun b => by
    match b with
    | ⟨0, _⟩ => rfl
    | ⟨1, _⟩ => rfl)).trans ?_
  rw [hid_at 0 128 256 _ _ _ _ p q (by have := q.isLt; omega) (by have := q.isLt; omega) (by have := q.isLt; omega), gates_at, gates_at, gates_at]

/-- The stored block at a backward column. -/
theorem pay_bwd (v0 : Vec Ideal S2048x904 .f32) (v5 v7 : Vec Ideal S904x768 .bf16) (v9 : Vec Ideal S1x768 .f32) (p : Fin 2048) (q : Fin 100) :
    k0_pay1 v0 v5 v7 v9 (ix2 p ⟨100 + q.val, by have := q.isLt; omega⟩)
      = Ideal.logistic (pre v0 v5 v7 v9 p ⟨640 + q.val, by have := q.isLt; omega⟩)
          * Ideal.tanh (Ideal.logistic (pre v0 v5 v7 v9 p ⟨384 + q.val, by have := q.isLt; omega⟩)
              * Ideal.tanh (pre v0 v5 v7 v9 p ⟨512 + q.val, by have := q.isLt; omega⟩)) := by
  rw [pay_eq]
  refine (concatenate_pair_apply_right 1 _ _ concatenates_S2048x100_S2048x100_S2048x200_d1 _ rfl rfl (ix2 p q) (fun b hb => by
    match b with
    | ⟨0, _⟩ => rfl
    | ⟨1, _⟩ => exact absurd rfl hb) (by show q.val + 100 = 100 + q.val; omega)).trans ?_
  rw [hid_at 384 512 640 _ _ _ _ p q (by have := q.isLt; omega) (by have := q.isLt; omega) (by have := q.isLt; omega), gates_at, gates_at, gates_at]

end Cert.KernelIdeal.Body

end
-- ==== Proof.Spec.lean ====
/-
  The function both programs compute, index by index, on the extended reals.

  One bidirectional LSTM step from the zero state: for a row r of the input and a gate row q of a direction's
  weight, the gate pre-activation is  (sum over k of x(r,k) * w(q,k) + b1(q)) + b2(q).  With the input gate at
  rows [0,100), the cell gate at rows [200,300) and the output gate at rows [300,400) (the forget gate meets
  the zero state and drops out), the hidden value is  sigmoid(o) * tanh(sigmoid(i) * tanh(g)).  The result
  row is the forward direction's 100 hidden values followed by the backward direction's.
-/
import Idealize.ShloMosaic.PureOps.Ideal
import Idealize.ShloMosaic.Lib.ValueIdx

noncomputable section

open scoped BigOperators

namespace Cert.Spec

open Idealize.ShloMosaic Idealize.ShloMosaic.ValueIdx

/-- The gate pre-activation of input row `r` against gate row `q`. -/
def gate (x : (⟨2, ![131072, 904]⟩ : Shape).Idx → EReal) (w : (⟨2, ![400, 904]⟩ : Shape).Idx → EReal)
    (b1 b2 : (⟨1, ![400]⟩ : Shape).Idx → EReal) (r : Fin 131072) (q : Fin 400) : EReal :=
  ((∑ k : Fin 904, x (ix2 r k) * w (ix2 q k)) + b1 (ix1 q)) + b2 (ix1 q)

/-- The two biases of gate row `q`, summed. -/
def biasAt (b1 b2 : (⟨1, ![400]⟩ : Shape).Idx → EReal) (q : Fin 400) : EReal := b1 (ix1 q) + b2 (ix1 q)

/-- One direction's hidden value at row `r`, unit `j`. -/
def hidden (x : (⟨2, ![131072, 904]⟩ : Shape).Idx → EReal) (w : (⟨2, ![400, 904]⟩ : Shape).Idx → EReal)
    (b1 b2 : (⟨1, ![400]⟩ : Shape).Idx → EReal) (r : Fin 131072) (j : Fin 100) : EReal :=
  Ideal.logistic (gate x w b1 b2 r ⟨300 + j.val, by omega⟩)
    * Ideal.tanh (Ideal.logistic (gate x w b1 b2 r ⟨j.val, by omega⟩) * Ideal.tanh (gate x w b1 b2 r ⟨200 + j.val, by omega⟩))

/-- The whole result: columns [0,100) the forward direction, columns [100,200) the backward one. -/
def G (x : (⟨2, ![131072, 904]⟩ : Shape).Idx → EReal)
    (wf : (⟨2, ![400, 904]⟩ : Shape).Idx → EReal) (b1f b2f : (⟨1, ![400]⟩ : Shape).Idx → EReal)
    (wb : (⟨2, ![400, 904]⟩ : Shape).Idx → EReal) (b1b b2b : (⟨1, ![400]⟩ : Shape).Idx → EReal) :
    (⟨2, ![131072, 200]⟩ : Shape).Idx → EReal := fun i =>
  if h : (i 1).val < 100 then hidden x wf b1f b2f (i 0) ⟨(i 1).val, h⟩
  else hidden x wb b1b b2b (i 0) ⟨(i 1).val - 100, by have := idx2_lt1 i; omega⟩

/-- In the fused weight, slot `s` (128 columns wide, the first 100 used) holds the gate rows starting at this row:
    input, cell, output gate of the forward direction, then of the backward direction. -/
def rowOff : Fin 6 → Nat := ![0, 200, 300, 0, 200, 300]

theorem rowOff_lt (s : Fin 6) (j : Fin 100) : rowOff s + j.val < 400 := by
  have := j.isLt
  fin_cases s <;> simp [rowOff] <;> omega

theorem col_lt (s : Fin 6) (j : Fin 100) : 128 * s.val + j.val < 768 := by
  have := j.isLt; have := s.isLt; omega

/-- Every entry of an array is a real number. -/
def AllFinite {s : Shape} (a : s.Idx → EReal) : Prop := ∀ i, a i ≠ ⊤ ∧ a i ≠ ⊥

/-- A finite extended real minus itself is zero. -/
theorem sub_self_of_finite {a : EReal} (h1 : a ≠ ⊤) (h2 : a ≠ ⊥) : a - a = 0 := by
  lift a to ℝ using ⟨h1, h2⟩
  rw [← EReal.coe_sub, sub_self, EReal.coe_zero]

/-- The split product collapses: with the low parts zero, the three partial sums and the summed bias are the
    gate pre-activation. -/
theorem gate_of_split (S b1 b2 : EReal) : ((S + 0) + 0) + (b1 + b2) = (S + b1) + b2 := by
  rw [add_zero, add_zero, add_assoc]

end Cert.Spec

end
-- ==== Proof.Collapse.lean ====
/-
  The fused pre-activation of a block entry is the specification's gate pre-activation.

  When the input block's row is a row of the input array, the high weight block's column is a (finite) gate row of a
  direction's weight, the low weight block is the high one minus itself, and the bias row's entry is the sum of the
  two bias entries, the low parts vanish — a finite extended real minus itself is zero, and a sum of zero products is
  zero — and what remains is  (x . w + b1) + b2  by associativity.
-/
import proofs.«156096_j54924041781763_2_alg».proof.Proof.Body
import proofs.«156096_j54924041781763_2_alg».proof.Proof.Spec

noncomputable section

open scoped BigOperators

namespace Cert.KernelIdeal.Body

open Cert.KernelIdeal Cert.KernelIdeal.Gen Idealize.ShloMosaic Idealize.ShloMosaic.ValueIdx

theorem pre_eq_gate (x0 : Vec Ideal S2048x904 .f32) (x1 x2 : Vec Ideal S904x768 .bf16) (x3 : Vec Ideal S1x768 .f32)
    (X : (⟨2, ![131072, 904]⟩ : Shape).Idx → EReal) (w : (⟨2, ![400, 904]⟩ : Shape).Idx → EReal)
    (b1 b2 : (⟨1, ![400]⟩ : Shape).Idx → EReal)
    (p : Fin 2048) (R : Fin 131072) (col : Fin 768) (row : Fin 400)
    (h0 : ∀ k : Fin 904, (x0 (ix2 p k) : EReal) = X (ix2 R k))
    (h1 : ∀ k : Fin 904, (x1 (ix2 k col) : EReal) = w (ix2 row k))
    (h2 : ∀ k : Fin 904, (x2 (ix2 k col) : EReal) = (x1 (ix2 k col) : EReal) - (x1 (ix2 k col) : EReal))
    (h3 : (x3 (ix2 (0 : Fin 1) col) : EReal) = b1 (ix1 row) + b2 (ix1 row))
    (hX : ∀ i, X i ≠ ⊤ ∧ X i ≠ ⊥) (hw : ∀ i, w i ≠ ⊤ ∧ w i ≠ ⊥) :
    pre x0 x1 x2 x3 p col = Cert.Spec.gate X w b1 b2 R row := by
  unfold pre Cert.Spec.gate
  have e1 : (∑ k : Fin 904, (x0 (ix2 p k) : EReal) * (x1 (ix2 k col) : EReal)) = ∑ k : Fin 904, X (ix2 R k) * w (ix2 row k) :=
    Finset.sum_congr rfl fun k _ => by rw [h0 k, h1 k]
  have e2 : (∑ k : Fin 904, (x0 (ix2 p k) : EReal) * (x2 (ix2 k col) : EReal)) = 0 :=
    Finset.sum_eq_zero fun k _ => by
      rw [h2 k, h1 k, Cert.Spec.sub_self_of_finite (hw _).1 (hw _).2, mul_zero]
  have e3 : (∑ k : Fin 904, ((x0 (ix2 p k) : EReal) - (x0 (ix2 p k) : EReal)) * (x1 (ix2 k col) : EReal)) = 0 :=
    Finset.sum_eq_zero fun k _ => by
      rw [h0 k, Cert.Spec.sub_self_of_finite (hX _).1 (hX _).2, zero_mul]
  rw [e1, e2, e3, h3]
  exact Cert.Spec.gate_of_split _ _ _

end Cert.KernelIdeal.Body

end
-- ==== Proof.LibScatterSet.lean ====
/-
  Reading a scatter whose body returns the update ("set") at an index.

  The scatter is a left fold, over the update's indices in row-major order, of a step that overwrites the
  operand's element at the update index's landing place (when that is inside the operand).  Two facts:
  a place no update index lands at keeps the operand's element (for any body); a place exactly one update
  index lands at holds that update's element when the body returns the update.  Then the landing place is
  computed for two placements: a block of columns written into a matrix at a column offset, and a vector written
  into a one-row matrix at a column offset.
-/
import Idealize.ShloMosaic.PureOps.ShapeOps
import Idealize.ShloMosaic.Lib.ValueIdx

namespace Cert.LibScatterSet

open Idealize.ShloMosaic Idealize.ShloMosaic.ValueIdx

variable {s si u : Shape} {α : Type} {w : Nat}

/-- The fold of the scatter's step over ANY list of (flattened) update indices leaves place `i` alone when
    no update index lands at `i`. -/
theorem foldl_miss (d : ScatterDims s si u) (f : α → α → α) (idx : IVec si w) (upd : u.Idx → α) (i : s.Idx)
    (h : ∀ j, d.resultIdx? j idx ≠ some i) (l : List (Fin u.numel)) (x : s.Idx → α) :
    (l.foldl (fun r n =>
      match d.resultIdx? (u.rowMajor.symm n) idx with
      | some i => fun i' => if i' = i then f (r i) (upd (u.rowMajor.symm n)) else r i'
      | none => r) x) i = x i := by
  induction l generalizing x with
  | nil => rfl
  | cons n l ih =>
    rw [List.foldl_cons, ih]
    cases hn : d.resultIdx? (u.rowMajor.symm n) idx with
    | none => rfl
    | some i0 =>
      have hne : i ≠ i0 := fun e => h (u.rowMajor.symm n) (by rw [hn, e])
      simp only [if_neg hne]

/-- (miss) A place no update index lands at keeps the operand's element, whatever the body. -/
theorem scatter_miss (d : ScatterDims s si u) (f : α → α → α) (x : s.Idx → α) (idx : IVec si w) (upd : u.Idx → α)
    (i : s.Idx) (h : ∀ j, d.resultIdx? j idx ≠ some i) :
    Host.scatter d f x idx upd i = x i :=
  foldl_miss d f idx upd i h _ x

/-- The fold of the "set" step over a duplicate-free list containing the one update index that lands at
    `i` leaves that update's element at `i`. -/
theorem foldl_hit (d : ScatterDims s si u) (idx : IVec si w) (upd : u.Idx → α) (i : s.Idx) (j : u.Idx)
    (hj : d.resultIdx? j idx = some i) (huniq : ∀ j', d.resultIdx? j' idx = some i → j' = j)
    (l : List (Fin u.numel)) (hnd : l.Nodup) (hmem : u.rowMajor j ∈ l) (x : s.Idx → α) :
    (l.foldl (fun r n =>
      match d.resultIdx? (u.rowMajor.symm n) idx with
      | some i => fun i' => if i' = i then (fun _ b => b) (r i) (upd (u.rowMajor.symm n)) else r i'
      | none => r) x) i = upd j := by
  induction l generalizing x with
  | nil => cases hmem
  | cons n l ih =>
    rw [List.foldl_cons]
    rcases List.nodup_cons.1 hnd with ⟨hnl, hnd'⟩
    rcases List.mem_cons.1 hmem with he | hin
    · -- the head is the hitting index: it writes `upd j`, and no later index lands at `i`
      have hnotin : ∀ m ∈ l, d.resultIdx? (u.rowMajor.symm m) idx ≠ some i := by
        intro m hm e
        have := huniq _ e
        have hm' : m = u.rowMajor j := by rw [← this, Equiv.apply_symm_apply]
        exact hnl (he ▸ hm' ▸ hm)
      have key : ∀ (l' : List (Fin u.numel)), (∀ m ∈ l', d.resultIdx? (u.rowMajor.symm m) idx ≠ some i) →
          ∀ y : s.Idx → α, (l'.foldl (fun r n =>
            match d.resultIdx? (u.rowMajor.symm n) idx with
            | some i => fun i' => if i' = i then (fun _ b => b) (r i) (upd (u.rowMajor.symm n)) else r i'
            | none => r) y) i = y i := by
        intro l' hl'
        induction l' with
        | nil => intro y; rfl
        | cons m l' ih' =>
          intro y
          rw [List.foldl_cons, ih' (fun m' hm' => hl' m' (List.mem_cons_of_mem _ hm'))]
          cases hm : d.resultIdx? (u.rowMajor.symm m) idx with
          | none => rfl
          | some i0 =>
            have hne : i ≠ i0 := fun e => hl' m (List.mem_cons_self ..) (by rw [hm, e])
            simp only [if_neg hne]
      rw [key l hnotin]
      have hsymm : u.rowMajor.symm n = j := by rw [← he, Equiv.symm_apply_apply]
      rw [hsymm, hj]
      simp
    · exact ih hnd' hin _

/-- (hit) A place exactly one update index `j` lands at holds `upd j` when the body returns the update. -/
theorem scatter_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j :=
  foldl_hit d idx upd i j hj huniq _ (List.nodup_finRange _) (List.mem_finRange _) x

section Landing
variable {s si u : Shape} {w : Nat}

/-- An update index lands at `i` exactly when, on every axis, `i`'s coordinate is the start plus the window coordinate. -/
theorem resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  constructor
  · intro h
    split at h
    · rename_i hin
      injection h with h
      intro a
      have := hin a
      rw [← h]
      show (((d.start j idx a + d.window j a).toNat : Nat) : Int) = _
      omega
    · cases h
  · intro h
    have hin : ∀ a, 0 ≤ d.start j idx a + d.window j a ∧ d.start j idx a + d.window j a < s.size a := by
      intro a
      have := h a
      have := (i a).isLt
      omega
    rw [dif_pos hin]
    congr 1
    funext a
    apply Fin.ext
    show (d.start j idx a + d.window j a).toNat = (i a).val
    have := h a
    omega

end Landing

section Columns
variable {R C W w : Nat}

/-- Column placement (operand R×C, one start index, update R×W, window axes both, the start on the column axis): the row axis has start 0. -/
theorem cols_start_zero (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (j : (⟨2, ![R, W]⟩ : Shape).Idx) (idx : IVec ⟨1, ![1]⟩ w) :
    d.start j idx 0 = 0 := by
  obtain ⟨uwd, iwd, sdo, ivd, wf⟩ := d
  simp only at h1 h2 h3 h4
  subst h1 h2 h3 h4
  unfold ScatterDims.start
  rw [dif_neg (show (0 : Fin 2) ∉ ([1] : List (Fin 2)) by decide)]

/-- Column placement: the column axis starts at the one scatter index, read signed. -/
theorem cols_start_one (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (j : (⟨2, ![R, W]⟩ : Shape).Idx) (idx : IVec ⟨1, ![1]⟩ w) :
    d.start j idx 1 = (idx (ix1 0)).toInt := by
  obtain ⟨uwd, iwd, sdo, ivd, wf⟩ := d
  simp only at h1 h2 h3 h4
  subst h1 h2 h3 h4
  unfold ScatterDims.start
  rw [dif_pos (show (1 : Fin 2) ∈ ([1] : List (Fin 2)) by decide)]
  congr 2
  funext b
  match b with
  | ⟨0, _⟩ => rfl

/-- Column placement: the window coordinate on the row axis is the update's row. -/
theorem cols_window_zero (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (j : (⟨2, ![R, W]⟩ : Shape).Idx) :
    d.window j 0 = (j 0).val := by
  obtain ⟨uwd, iwd, sdo, ivd, wf⟩ := d
  simp only at h1 h2 h3 h4
  subst h1 h2 h3 h4
  unfold ScatterDims.window
  exact (dif_pos (show (0 : Fin 2) ∈ (List.finRange 2).filter (· ∉ ([] : List (Fin 2))) by decide)).trans rfl

/-- Column placement: the window coordinate on the column axis is the update's column. -/
theorem cols_window_one (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (j : (⟨2, ![R, W]⟩ : Shape).Idx) :
    d.window j 1 = (j 1).val := by
  obtain ⟨uwd, iwd, sdo, ivd, wf⟩ := d
  simp only at h1 h2 h3 h4
  subst h1 h2 h3 h4
  unfold ScatterDims.window
  exact (dif_pos (show (1 : Fin 2) ∈ (List.finRange 2).filter (· ∉ ([] : List (Fin 2))) by decide)).trans rfl

/-- Column placement: update `j` lands at `i` exactly when the rows agree and `i`'s column is the start plus `j`'s column. -/
theorem cols_lands_iff (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (j : (⟨2, ![R, W]⟩ : Shape).Idx) (idx : IVec ⟨1, ![1]⟩ w) (i : (⟨2, ![R, C]⟩ : Shape).Idx) :
    d.resultIdx? j idx = some i ↔
      (i 0).val = (j 0).val ∧ ((i 1).val : Int) = (idx (ix1 0)).toInt + ((j 1).val : Int) := by
  rw [resultIdx?_eq_some_iff]
  constructor
  · intro h
    have e0 := h 0
    have e1 := h 1
    rw [cols_start_zero d h1 h2 h3 h4, cols_window_zero d h1 h2 h3 h4] at e0
    rw [cols_start_one d h1 h2 h3 h4, cols_window_one d h1 h2 h3 h4] at e1
    exact ⟨by omega, e1⟩
  · rintro ⟨e0, e1⟩ a
    match a with
    | ⟨0, _⟩ =>
      show ((i 0).val : Int) = d.start j idx 0 + d.window j 0
      rw [cols_start_zero d h1 h2 h3 h4, cols_window_zero d h1 h2 h3 h4]; omega
    | ⟨1, _⟩ =>
      show ((i 1).val : Int) = d.start j idx 1 + d.window j 1
      rw [cols_start_one d h1 h2 h3 h4, cols_window_one d h1 h2 h3 h4]; exact e1

/-- Column placement, WRITTEN: with the block placed at column `st`, entry `(a, st + b)` of the result is
    entry `(a, b)` of the block. -/
theorem cols_hit {α : Type} (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (x : (⟨2, ![R, C]⟩ : Shape).Idx → α) (idx : IVec ⟨1, ![1]⟩ w)
    (upd : (⟨2, ![R, W]⟩ : Shape).Idx → α) (st : Nat) (hst : (idx (ix1 0)).toInt = (st : Int))
    (a : Fin R) (b : Fin W) (col : Fin C) (hcol : col.val = st + b.val) :
    Host.scatter d (fun _ b => b) x idx upd (ix2 a col) = upd (ix2 a b) := by
  refine scatter_hit d x idx upd (ix2 a col) (ix2 a b) ?_ ?_
  · refine (cols_lands_iff d h1 h2 h3 h4 _ idx _).2 ⟨rfl, ?_⟩
    show ((col.val : Nat) : Int) = (idx (ix1 0)).toInt + ((b.val : Nat) : Int)
    rw [hst]; omega
  · intro j' hj'
    obtain ⟨e0, e1⟩ := (cols_lands_iff d h1 h2 h3 h4 _ idx _).1 hj'
    have e0' : a.val = (j' 0).val := e0
    have e1' : ((col.val : Nat) : Int) = (idx (ix1 0)).toInt + ((j' 1).val : Int) := e1
    rw [hst] at e1'
    funext ax
    match ax with
    | ⟨0, _⟩ => exact Fin.ext (show (j' 0).val = a.val by omega)
    | ⟨1, _⟩ => exact Fin.ext (show (j' 1).val = b.val by omega)

/-- Column placement, PASSED THROUGH: a column outside `[st, st + W)` keeps the operand's entry. -/
theorem cols_miss {α : Type} (d : ScatterDims ⟨2, ![R, C]⟩ ⟨1, ![1]⟩ ⟨2, ![R, W]⟩)
    (h1 : d.updateWindowDims = [0, 1]) (h2 : d.insertedWindowDims = []) (h3 : d.scatterDimsToOperandDims = [1])
    (h4 : d.indexVectorDim = 0) (f : α → α → α) (x : (⟨2, ![R, C]⟩ : Shape).Idx → α) (idx : IVec ⟨1, ![1]⟩ w)
    (upd : (⟨2, ![R, W]⟩ : Shape).Idx → α) (st : Nat) (hst : (idx (ix1 0)).toInt = (st : Int))
    (a : Fin R) (col : Fin C) (hcol : col.val < st ∨ st + W ≤ col.val) :
    Host.scatter d f x idx upd (ix2 a col) = x (ix2 a col) := by
  refine scatter_miss d f x idx upd (ix2 a col) fun j hj => ?_
  obtain ⟨_, e1⟩ := (cols_lands_iff d h1 h2 h3 h4 _ idx _).1 hj
  have e1' : ((col.val : Nat) : Int) = (idx (ix1 0)).toInt + ((j 1).val : Int) := e1
  rw [hst] at e1'
  have := idx2_lt1 j
  omega

end Columns

section Row
variable {C W w : Nat}

/-- Row-vector placement (operand 1×C, a two-component start index, update of length W, the operand's row axis inserted): the row axis starts at the first component. -/
theorem row_start_zero (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (j : (⟨1, ![W]⟩ : Shape).Idx) (idx : IVec ⟨1, ![2]⟩ w) :
    d.start j idx 0 = (idx (ix1 0)).toInt := by
  obtain ⟨uwd, iwd, sdo, ivd, wf⟩ := d
  simp only at h1 h2 h3 h4
  subst h1 h2 h3 h4
  unfold ScatterDims.start
  rw [dif_pos (show (0 : Fin 2) ∈ ([0, 1] : List (Fin 2)) by decide)]
  congr 2
  funext b
  match b with
  | ⟨0, _⟩ => rfl

/-- Row-vector placement: the column axis starts at the second component. -/
theorem row_start_one (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (j : (⟨1, ![W]⟩ : Shape).Idx) (idx : IVec ⟨1, ![2]⟩ w) :
    d.start j idx 1 = (idx (ix1 1)).toInt := by
  obtain ⟨uwd, iwd, sdo, ivd, wf⟩ := d
  simp only at h1 h2 h3 h4
  subst h1 h2 h3 h4
  unfold ScatterDims.start
  rw [dif_pos (show (1 : Fin 2) ∈ ([0, 1] : List (Fin 2)) by decide)]
  congr 2
  funext b
  match b with
  | ⟨0, _⟩ => rfl

/-- Row-vector placement: the inserted row axis has window coordinate 0. -/
theorem row_window_zero (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (j : (⟨1, ![W]⟩ : Shape).Idx) :
    d.window j 0 = 0 := by
  obtain ⟨uwd, iwd, sdo, ivd, wf⟩ := d
  simp only at h1 h2 h3 h4
  subst h1 h2 h3 h4
  unfold ScatterDims.window
  exact dif_neg (show (0 : Fin 2) ∉ (List.finRange 2).filter (· ∉ ([0] : List (Fin 2))) by decide)

/-- Row-vector placement: the window coordinate on the column axis is the update's position. -/
theorem row_window_one (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (j : (⟨1, ![W]⟩ : Shape).Idx) :
    d.window j 1 = (j 0).val := by
  obtain ⟨uwd, iwd, sdo, ivd, wf⟩ := d
  simp only at h1 h2 h3 h4
  subst h1 h2 h3 h4
  unfold ScatterDims.window
  exact (dif_pos (show (1 : Fin 2) ∈ (List.finRange 2).filter (· ∉ ([0] : List (Fin 2))) by decide)).trans rfl

/-- Row-vector placement: update `j` lands at `i` exactly when `i`'s row is the first start component and its
    column the second plus `j`'s position. -/
theorem row_lands_iff (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (j : (⟨1, ![W]⟩ : Shape).Idx) (idx : IVec ⟨1, ![2]⟩ w) (i : (⟨2, ![1, C]⟩ : Shape).Idx) :
    d.resultIdx? j idx = some i ↔
      ((i 0).val : Int) = (idx (ix1 0)).toInt ∧ ((i 1).val : Int) = (idx (ix1 1)).toInt + ((j 0).val : Int) := by
  rw [resultIdx?_eq_some_iff]
  constructor
  · intro h
    have e0 := h 0
    have e1 := h 1
    rw [row_start_zero d h1 h2 h3 h4, row_window_zero d h1 h2 h3 h4] at e0
    rw [row_start_one d h1 h2 h3 h4, row_window_one d h1 h2 h3 h4] at e1
    exact ⟨by omega, e1⟩
  · rintro ⟨e0, e1⟩ a
    match a with
    | ⟨0, _⟩ =>
      show ((i 0).val : Int) = d.start j idx 0 + d.window j 0
      rw [row_start_zero d h1 h2 h3 h4, row_window_zero d h1 h2 h3 h4]; omega
    | ⟨1, _⟩ =>
      show ((i 1).val : Int) = d.start j idx 1 + d.window j 1
      rw [row_start_one d h1 h2 h3 h4, row_window_one d h1 h2 h3 h4]; exact e1

/-- Row-vector placement, WRITTEN: with the vector placed at `(0, st)`, entry `(0, st + b)` of the result is entry
    `b` of the vector. -/
theorem row_hit {α : Type} (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (x : (⟨2, ![1, C]⟩ : Shape).Idx → α) (idx : IVec ⟨1, ![2]⟩ w)
    (upd : (⟨1, ![W]⟩ : Shape).Idx → α) (st : Nat) (hr : (idx (ix1 0)).toInt = 0) (hst : (idx (ix1 1)).toInt = (st : Int))
    (b : Fin W) (col : Fin C) (hcol : col.val = st + b.val) :
    Host.scatter d (fun _ b => b) x idx upd (ix2 (0 : Fin 1) col) = upd (ix1 b) := by
  refine scatter_hit d x idx upd (ix2 (0 : Fin 1) col) (ix1 b) ?_ ?_
  · refine (row_lands_iff d h1 h2 h3 h4 _ idx _).2 ⟨?_, ?_⟩
    · show (((0 : Fin 1).val : Nat) : Int) = (idx (ix1 0)).toInt
      rw [hr]; rfl
    · show ((col.val : Nat) : Int) = (idx (ix1 1)).toInt + ((b.val : Nat) : Int)
      rw [hst]; omega
  · intro j' hj'
    obtain ⟨_, e1⟩ := (row_lands_iff d h1 h2 h3 h4 _ idx _).1 hj'
    have e1' : ((col.val : Nat) : Int) = (idx (ix1 1)).toInt + ((j' 0).val : Int) := e1
    rw [hst] at e1'
    funext ax
    match ax with
    | ⟨0, _⟩ => exact Fin.ext (show (j' 0).val = b.val by omega)

/-- Row-vector placement, PASSED THROUGH: a column outside `[st, st + W)` keeps the operand's entry. -/
theorem row_miss {α : Type} (d : ScatterDims ⟨2, ![1, C]⟩ ⟨1, ![2]⟩ ⟨1, ![W]⟩)
    (h1 : d.updateWindowDims = [0]) (h2 : d.insertedWindowDims = [0]) (h3 : d.scatterDimsToOperandDims = [0, 1])
    (h4 : d.indexVectorDim = 0) (f : α → α → α) (x : (⟨2, ![1, C]⟩ : Shape).Idx → α) (idx : IVec ⟨1, ![2]⟩ w)
    (upd : (⟨1, ![W]⟩ : Shape).Idx → α) (st : Nat) (hst : (idx (ix1 1)).toInt = (st : Int))
    (r : Fin 1) (col : Fin C) (hcol : col.val < st ∨ st + W ≤ col.val) :
    Host.scatter d f x idx upd (ix2 r col) = x (ix2 r col) := by
  refine scatter_miss d f x idx upd (ix2 r col) fun j hj => ?_
  obtain ⟨_, e1⟩ := (row_lands_iff d h1 h2 h3 h4 _ idx _).1 hj
  have e1' : ((col.val : Nat) : Int) = (idx (ix1 1)).toInt + ((j 0).val : Int) := e1
  rw [hst] at e1'
  have : (j 0).val < W := (j 0).isLt
  omega

end Row

end Cert.LibScatterSet
-- ==== Proof.FusedBias.lean ====
/-
  The fused bias, read entry by entry.

  Before the region the host program forms, for each direction, the sum  b_ih + b_hh  of the two bias vectors (400
  entries), views it as a 4 × 100 array (row g holds entries 100 g … 100 g + 99: the input, forget, cell and output
  gates), and writes rows 0, 2 and 3 of the forward direction and then of the backward direction into a zero row vector
  of 768 entries, at columns 0, 128, 256, 384, 512, 640 — six slots 128 wide, 100 entries used in each.  A placement
  writes the 100 entries of its row at the columns [start, start + 100) of row 0 and changes nothing else; the start
  position is a two-entry index array (0, start).  The written column ranges are disjoint, so column start_s + j of the
  result is what placement s wrote there: every later placement starts at least 128 columns further on and misses it.
  Entry j of row g of the 4 × 100 view is entry 100 g + j of the sum, which is the two biases' entries added.
-/
import proofs.«156096_j54924041781763_2_alg».proof.Proof.Gen.KernelIdeal.Frame
import proofs.«156096_j54924041781763_2_alg».proof.Proof.Spec
import proofs.«156096_j54924041781763_2_alg».proof.Proof.LibScatterSet
import Idealize.ShloMosaic.Lib.Pipeline.Value
import Idealize.ShloMosaic.Lib.ValueIdx
import Idealize.ShloMosaic.Lib.IdealHost

noncomputable section

namespace Cert.KernelIdeal.FusedB

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The two-entry start-index array: the first entry then the second. -/
def cat2 (a b : S1.Idx → BitVec 32) : S2.Idx → BitVec 32 :=
  concatenate S2 0 [⟨S1, a⟩, ⟨S1, b⟩] concatenates_S1_S1_S2_d0

theorem cat2_def (a b : S1.Idx → BitVec 32) (h) : concatenate S2 0 [⟨S1, a⟩, ⟨S1, b⟩] h = cat2 a b := rfl

/-- A constant word broadcast to a one-entry array. -/
def bcI (w : BitVec 32) : S1.Idx → BitVec 32 := broadcastInDim S1 ![] bcast_S_S1 (constantI S_ 32 w)

theorem bcI_apply (w : BitVec 32) (i : S1.Idx) : bcI w i = w := by
  unfold bcI
  exact broadcastInDim_scalar_apply bcast_S_S1 (constantI S_ 32 w) i

/-- The joined array's first entry is the first piece's. -/
theorem cat2_zero (a b : S1.Idx → BitVec 32) : cat2 a b (ix1 (0 : Fin 2)) = a (ix1 (0 : Fin 1)) := by
  unfold cat2
  exact concatenate_pair_apply_left (0 : Fin S2.rank) a b concatenates_S1_S1_S2_d0 (ix1 (0 : Fin 2)) rfl (ix1 (0 : Fin 1))
    (fun b => by match b with | ⟨0, _⟩ => rfl)

/-- The joined array's second entry is the second piece's. -/
theorem cat2_one (a b : S1.Idx → BitVec 32) : cat2 a b (ix1 (1 : Fin 2)) = b (ix1 (0 : Fin 1)) := by
  unfold cat2
  exact concatenate_pair_apply_right (0 : Fin S2.rank) a b concatenates_S1_S1_S2_d0 (ix1 (1 : Fin 2)) rfl rfl (ix1 (0 : Fin 1))
    (fun b hb => by match b with | ⟨0, _⟩ => exact absurd rfl hb) rfl

/-- Row `g` of the 4 × 100 arrangement of `b1 + b2`, as a vector of 100 entries. -/
def rowOf (b1 b2 : S400.Idx → EReal) (g : Nat) (hs : S4x100.Slices ![g, 0] S1x100) : S100.Idx → EReal :=
  fun i => shapeCast S100 (extractStridedSlice S1x100 ![g, 0]
    (fun i => shapeCast S4x100 (addf (F := Ideal) (φ := .f32) b1 b2) shapeCasts_S400_S4x100 i) hs) shapeCasts_S1x100_S100 i

/-- Its entry `j` is the sum of the two biases at position `100 g + j`. -/
theorem rowOf_apply (b1 b2 : S400.Idx → EReal) (g : Nat) (hg : g < 4) (hs : S4x100.Slices ![g, 0] S1x100) (j : Fin 100)
    (q : Fin 400) (hq : q.val = 100 * g + j.val) :
    rowOf b1 b2 g hs (ix1 j) = Cert.Spec.biasAt b1 b2 q := by
  unfold rowOf
  refine (shapeCast_apply _ shapeCasts_S1x100_S100 (ix1 j) (ix2 (0 : Fin 1) j) ?_).trans ?_
  · rw [Shape.rowMajor_val_two, Shape.rowMajor_val_one]
    show 0 * 100 + j.val = j.val
    omega
  refine (extractStridedSlice_apply ![g, 0] _ hs (ix2 (0 : Fin 1) j) (ix2 (⟨g, hg⟩ : Fin 4) j) (fun a => ?_)).trans ?_
  · match a with
    | ⟨0, _⟩ => show g = g + 0; omega
    | ⟨1, _⟩ => show j.val = 0 + j.val; omega
  refine (shapeCast_apply _ shapeCasts_S400_S4x100 (ix2 (⟨g, hg⟩ : Fin 4) j) (ix1 q) ?_).trans ?_
  · rw [Shape.rowMajor_val_two, Shape.rowMajor_val_one]
    show q.val = g * 100 + j.val
    omega
  rfl

/-- One placement: the row vector `x` with `u` written at columns `[w, w + 100)` of row 0. -/
def put (x : S1x768.Idx → EReal) (w : BitVec 32) (u : S100.Idx → EReal) : S1x768.Idx → EReal :=
  Host.scatter scatter_S1x768_S2_S100_0_0_01_0 (fun _ b => b) x (cat2 (bcI 0#32) (bcI w)) u

/-- Inside the written columns the placement reads the written vector. -/
theorem put_hit (x : S1x768.Idx → EReal) (w : BitVec 32) (u : S100.Idx → EReal) (st : Nat) (hw : w.toInt = (st : Int))
    (j : Fin 100) (col : Fin 768) (hcol : col.val = st + j.val) :
    put x w u (ix2 (0 : Fin 1) col) = u (ix1 j) := by
  unfold put
  refine Cert.LibScatterSet.row_hit scatter_S1x768_S2_S100_0_0_01_0 rfl rfl rfl rfl x _ u st ?_ ?_ j col hcol
  · rw [cat2_zero, bcI_apply]; rfl
  · rw [cat2_one, bcI_apply]; exact hw

/-- Outside them it reads what was there. -/
theorem put_miss (x : S1x768.Idx → EReal) (w : BitVec 32) (u : S100.Idx → EReal) (st : Nat) (hw : w.toInt = (st : Int))
    (col : Fin 768) (hcol : col.val < st ∨ st + 100 ≤ col.val) :
    put x w u (ix2 (0 : Fin 1) col) = x (ix2 (0 : Fin 1) col) := by
  unfold put
  refine Cert.LibScatterSet.row_miss scatter_S1x768_S2_S100_0_0_01_0 rfl rfl rfl rfl _ x _ u st ?_ (0 : Fin 1) col hcol
  rw [cat2_one, bcI_apply]; exact hw

/-- The all-zero row vector the placements start from. -/
def zeroRow : S1x768.Idx → EReal := broadcastInDim S1x768 ![] bcast_S_S1x768 (constant (F := Ideal) S_ .f32 0#32)

set_option maxHeartbeats 1600000 in
/-- The fused bias as the program builds it: six placements into the zero row, the forward direction's input, cell and
    output rows of `b_ih + b_hh` at columns 0, 128, 256, then the backward direction's at 384, 512, 640. -/
theorem v65_term :
    (V m c main_v65 : S1x768.Idx → EReal) =
      put (put (put (put (put (put zeroRow
        0#32 (rowOf (m ((c : Thread nD τ).loc main_arg3)) (m ((c : Thread nD τ).loc main_arg4)) 0 slices_S4x100_S1x100_0_0))
        128#32 (rowOf (m ((c : Thread nD τ).loc main_arg3)) (m ((c : Thread nD τ).loc main_arg4)) 2 slices_S4x100_S1x100_2_0))
        256#32 (rowOf (m ((c : Thread nD τ).loc main_arg3)) (m ((c : Thread nD τ).loc main_arg4)) 3 slices_S4x100_S1x100_3_0))
        384#32 (rowOf (m ((c : Thread nD τ).loc main_arg7)) (m ((c : Thread nD τ).loc main_arg8)) 0 slices_S4x100_S1x100_0_0))
        512#32 (rowOf (m ((c : Thread nD τ).loc main_arg7)) (m ((c : Thread nD τ).loc main_arg8)) 2 slices_S4x100_S1x100_2_0))
        640#32 (rowOf (m ((c : Thread nD τ).loc main_arg7)) (m ((c : Thread nD τ).loc main_arg8)) 3 slices_S4x100_S1x100_3_0) := by
  dsimp only [Gen.V, Gen.hostOps0]
  open Idealize.ShloMosaic.StableHlo in
  simp (disch := decide) only [after_cons, after_nil, ↓cat2_def, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

/-- Columns [0, 100) hold the forward direction's input-gate biases, rows [0, 100) of `b_ih + b_hh`. -/
theorem bias_0 (j : Fin 100) :
    (V m c main_v65 : S1x768.Idx → EReal) (ix2 (0 : Fin 1) ⟨j.val, by have := j.isLt; omega⟩)
      = Cert.Spec.biasAt (m ((c : Thread nD τ).loc main_arg3)) (m ((c : Thread nD τ).loc main_arg4)) ⟨j.val, by have := j.isLt; omega⟩ := by
  have hj := j.isLt
  rw [v65_term m c,
    put_miss _ _ _ 640 (by decide) _ (Or.inl (by show j.val < 640; omega)),
    put_miss _ _ _ 512 (by decide) _ (Or.inl (by show j.val < 512; omega)),
    put_miss _ _ _ 384 (by decide) _ (Or.inl (by show j.val < 384; omega)),
    put_miss _ _ _ 256 (by decide) _ (Or.inl (by show j.val < 256; omega)),
    put_miss _ _ _ 128 (by decide) _ (Or.inl (by show j.val < 128; omega)),
    put_hit _ _ _ 0 (by decide) j _ (by show j.val = 0 + j.val; omega)]
  exact rowOf_apply _ _ 0 (by decide) _ j _ (by show j.val = 100 * 0 + j.val; omega)

/-- Columns [128, 228) hold the forward direction's cell-gate biases, rows [200, 300) of `b_ih + b_hh`. -/
theorem bias_1 (j : Fin 100) :
    (V m c main_v65 : S1x768.Idx → EReal) (ix2 (0 : Fin 1) ⟨128 + j.val, by have := j.isLt; omega⟩)
      = Cert.Spec.biasAt (m ((c : Thread nD τ).loc main_arg3)) (m ((c : Thread nD τ).loc main_arg4)) ⟨200 + j.val, by have := j.isLt; omega⟩ := by
  have hj := j.isLt
  rw [v65_term m c,
    put_miss _ _ _ 640 (by decide) _ (Or.inl (by show 128 + j.val < 640; omega)),
    put_miss _ _ _ 512 (by decide) _ (Or.inl (by show 128 + j.val < 512; omega)),
    put_miss _ _ _ 384 (by decide) _ (Or.inl (by show 128 + j.val < 384; omega)),
    put_miss _ _ _ 256 (by decide) _ (Or.inl (by show 128 + j.val < 256; omega)),
    put_hit _ _ _ 128 (by decide) j _ rfl]
  exact rowOf_apply _ _ 2 (by decide) _ j _ (by show 200 + j.val = 100 * 2 + j.val; omega)

/-- Columns [256, 356) hold the forward direction's output-gate biases, rows [300, 400) of `b_ih + b_hh`. -/
theorem bias_2 (j : Fin 100) :
    (V m c main_v65 : S1x768.Idx → EReal) (ix2 (0 : Fin 1) ⟨256 + j.val, by have := j.isLt; omega⟩)
      = Cert.Spec.biasAt (m ((c : Thread nD τ).loc main_arg3)) (m ((c : Thread nD τ).loc main_arg4)) ⟨300 + j.val, by have := j.isLt; omega⟩ := by
  have hj := j.isLt
  rw [v65_term m c,
    put_miss _ _ _ 640 (by decide) _ (Or.inl (by show 256 + j.val < 640; omega)),
    put_miss _ _ _ 512 (by decide) _ (Or.inl (by show 256 + j.val < 512; omega)),
    put_miss _ _ _ 384 (by decide) _ (Or.inl (by show 256 + j.val < 384; omega)),
    put_hit _ _ _ 256 (by decide) j _ rfl]
  exact rowOf_apply _ _ 3 (by decide) _ j _ (by show 300 + j.val = 100 * 3 + j.val; omega)

/-- Columns [384, 484) hold the backward direction's input-gate biases, rows [0, 100) of `b_ih + b_hh`. -/
theorem bias_3 (j : Fin 100) :
    (V m c main_v65 : S1x768.Idx → EReal) (ix2 (0 : Fin 1) ⟨384 + j.val, by have := j.isLt; omega⟩)
      = Cert.Spec.biasAt (m ((c : Thread nD τ).loc main_arg7)) (m ((c : Thread nD τ).loc main_arg8)) ⟨j.val, by have := j.isLt; omega⟩ := by
  have hj := j.isLt
  rw [v65_term m c,
    put_miss _ _ _ 640 (by decide) _ (Or.inl (by show 384 + j.val < 640; omega)),
    put_miss _ _ _ 512 (by decide) _ (Or.inl (by show 384 + j.val < 512; omega)),
    put_hit _ _ _ 384 (by decide) j _ rfl]
  exact rowOf_apply _ _ 0 (by decide) _ j _ (by show j.val = 100 * 0 + j.val; omega)

/-- Columns [512, 612) hold the backward direction's cell-gate biases, rows [200, 300) of `b_ih + b_hh`. -/
theorem bias_4 (j : Fin 100) :
    (V m c main_v65 : S1x768.Idx → EReal) (ix2 (0 : Fin 1) ⟨512 + j.val, by have := j.isLt; omega⟩)
      = Cert.Spec.biasAt (m ((c : Thread nD τ).loc main_arg7)) (m ((c : Thread nD τ).loc main_arg8)) ⟨200 + j.val, by have := j.isLt; omega⟩ := by
  have hj := j.isLt
  rw [v65_term m c,
    put_miss _ _ _ 640 (by decide) _ (Or.inl (by show 512 + j.val < 640; omega)),
    put_hit _ _ _ 512 (by decide) j _ rfl]
  exact rowOf_apply _ _ 2 (by decide) _ j _ (by show 200 + j.val = 100 * 2 + j.val; omega)

/-- Columns [640, 740) hold the backward direction's output-gate biases, rows [300, 400) of `b_ih + b_hh`. -/
theorem bias_5 (j : Fin 100) :
    (V m c main_v65 : S1x768.Idx → EReal) (ix2 (0 : Fin 1) ⟨640 + j.val, by have := j.isLt; omega⟩)
      = Cert.Spec.biasAt (m ((c : Thread nD τ).loc main_arg7)) (m ((c : Thread nD τ).loc main_arg8)) ⟨300 + j.val, by have := j.isLt; omega⟩ := by
  have hj := j.isLt
  rw [v65_term m c,
    put_hit _ _ _ 640 (by decide) j _ rfl]
  exact rowOf_apply _ _ 3 (by decide) _ j _ (by show 300 + j.val = 100 * 3 + j.val; omega)

end Cert.KernelIdeal.FusedB

end
-- ==== Proof.FusedOperands.lean ====
/-
  What the host builds before the launch, read entry by entry.

  The fused weight is a 904 × 768 array of zeros into which six 904 × 100 blocks are written, block s at columns
  [128 s, 128 s + 100): the transposes of rows [0,100), [200,300), [300,400) of the forward weight (s = 0, 1, 2) and of
  the backward weight (s = 3, 4, 5).  Each write returns the written value, so column 128 s + j of the result holds
  what block s wrote there — the later blocks sit at other columns and leave it alone —: entry (k, 128 s + j) is
  w(g_s + j, k), g_s the first row of the block's gate.  The high half is that array converted to a narrower
  format, which on the extended reals changes nothing; the low half is the array minus its high half, converted.
-/
import proofs.«156096_j54924041781763_2_alg».proof.Proof.Gen.KernelIdeal.Frame
import proofs.«156096_j54924041781763_2_alg».proof.Proof.Spec
import proofs.«156096_j54924041781763_2_alg».proof.Proof.LibScatterSet
import proofs.«156096_j54924041781763_2_alg».proof.Proof.FusedBias
import Idealize.ShloMosaic.Lib.ValueIdx
import Idealize.ShloMosaic.Lib.Pipeline.Value

set_option maxRecDepth 16384

noncomputable section

namespace Cert.KernelIdeal.Fused

open Cert.KernelIdeal Cert.KernelIdeal.Gen Idealize.ShloMosaic Idealize.ShloMosaic.ValueIdx Idealize.ShloMosaic.TcCoe Idealize.SL.Sem
open Cert.LibScatterSet

/-! ## The pieces of the host's term -/

/-- The one-entry index array holding the column offset `v`. -/
def startAt (v : BitVec 32) : IVec S1 32 := broadcastInDim S1 ![] bcast_S_S1 (constantI S_ 32 v)

theorem startAt_toInt (v : BitVec 32) : (startAt v (ix1 0)).toInt = v.toInt := rfl

/-- The 904 × 768 array of zeros. -/
def zeros : S904x768.Idx → EReal := broadcastInDim S904x768 ![] bcast_S_S904x768 (constant (F := Ideal) S_ .f32 0x00000000#32)

/-- Rows [0, 100) of a weight, transposed. -/
def blockA (x : S400x904.Idx → EReal) : S904x100.Idx → EReal :=
  transpose S904x100 [1, 0] (extractStridedSlice S100x904 ![0, 0] x slices_S400x904_S100x904_0_0) transposes_S100x904_S904x100_1_0
/-- Rows [200, 300) of a weight, transposed. -/
def blockB (x : S400x904.Idx → EReal) : S904x100.Idx → EReal :=
  transpose S904x100 [1, 0] (extractStridedSlice S100x904 ![200, 0] x slices_S400x904_S100x904_200_0) transposes_S100x904_S904x100_1_0
/-- Rows [300, 400) of a weight, transposed. -/
def blockC (x : S400x904.Idx → EReal) : S904x100.Idx → EReal :=
  transpose S904x100 [1, 0] (extractStridedSlice S100x904 ![300, 0] x slices_S400x904_S100x904_300_0) transposes_S100x904_S904x100_1_0

/-- Entry (k, j) of the first block is the weight's entry (j, k). -/
theorem blockA_apply (x : S400x904.Idx → EReal) (k : Fin 904) (j : Fin 100) :
    blockA x (ix2 k j) = x (ix2 ⟨j.val, by have := j.isLt; omega⟩ k) := by
  unfold blockA
  refine (transpose_apply [1, 0] _ transposes_S100x904_S904x100_1_0 (ix2 k j) (ix2 j k) (fun b => match b with
    | ⟨0, _⟩ => rfl
    | ⟨1, _⟩ => rfl)).trans ?_
  exact extractStridedSlice_apply ![0, 0] x slices_S400x904_S100x904_0_0 (ix2 j k) (ix2 ⟨j.val, by have := j.isLt; omega⟩ k) (fun a => match a with
    | ⟨0, _⟩ => by show j.val = 0 + j.val; omega
    | ⟨1, _⟩ => by show k.val = 0 + k.val; omega)

/-- Entry (k, j) of the second block is the weight's entry (200 + j, k). -/
theorem blockB_apply (x : S400x904.Idx → EReal) (k : Fin 904) (j : Fin 100) :
    blockB x (ix2 k j) = x (ix2 ⟨200 + j.val, by have := j.isLt; omega⟩ k) := by
  unfold blockB
  refine (transpose_apply [1, 0] _ transposes_S100x904_S904x100_1_0 (ix2 k j) (ix2 j k) (fun b => match b with
    | ⟨0, _⟩ => rfl
    | ⟨1, _⟩ => rfl)).trans ?_
  exact extractStridedSlice_apply ![200, 0] x slices_S400x904_S100x904_200_0 (ix2 j k) (ix2 ⟨200 + j.val, by have := j.isLt; omega⟩ k) (fun a => match a with
    | ⟨0, _⟩ => by show 200 + j.val = 200 + j.val; rfl
    | ⟨1, _⟩ => by show k.val = 0 + k.val; omega)

/-- Entry (k, j) of the third block is the weight's entry (300 + j, k). -/
theorem blockC_apply (x : S400x904.Idx → EReal) (k : Fin 904) (j : Fin 100) :
    blockC x (ix2 k j) = x (ix2 ⟨300 + j.val, by have := j.isLt; omega⟩ k) := by
  unfold blockC
  refine (transpose_apply [1, 0] _ transposes_S100x904_S904x100_1_0 (ix2 k j) (ix2 j k) (fun b => match b with
    | ⟨0, _⟩ => rfl
    | ⟨1, _⟩ => rfl)).trans ?_
  exact extractStridedSlice_apply ![300, 0] x slices_S400x904_S100x904_300_0 (ix2 j k) (ix2 ⟨300 + j.val, by have := j.isLt; omega⟩ k) (fun a => match a with
    | ⟨0, _⟩ => by show 300 + j.val = 300 + j.val; rfl
    | ⟨1, _⟩ => by show k.val = 0 + k.val; omega)

/-- Writing a 904 × 100 block into a 904 × 768 array at the columns the index array names. -/
def place (x : S904x768.Idx → EReal) (i : IVec S1 32) (u : S904x100.Idx → EReal) : S904x768.Idx → EReal :=
  Host.scatter scatter_S904x768_S1_S904x100_01_n_1_0 (fun _ b => b) x i u

/-- The written columns: entry (k, st + j) is the block's entry (k, j). -/
theorem place_hit (x : S904x768.Idx → EReal) (v : BitVec 32) (u : S904x100.Idx → EReal) (st : Nat) (hst : v.toInt = (st : Int))
    (k : Fin 904) (j : Fin 100) (col : Fin 768) (hcol : col.val = st + j.val) :
    place x (startAt v) u (ix2 k col) = u (ix2 k j) :=
  cols_hit scatter_S904x768_S1_S904x100_01_n_1_0 rfl rfl rfl rfl x (startAt v) u st hst k j col hcol

/-- The other columns keep what was there. -/
theorem place_miss (x : S904x768.Idx → EReal) (v : BitVec 32) (u : S904x100.Idx → EReal) (st : Nat) (hst : v.toInt = (st : Int))
    (k : Fin 904) (col : Fin 768) (hcol : col.val < st ∨ st + 100 ≤ col.val) :
    place x (startAt v) u (ix2 k col) = x (ix2 k col) :=
  cols_miss scatter_S904x768_S1_S904x100_01_n_1_0 rfl rfl rfl rfl _ x (startAt v) u st hst k col hcol

/-- The fused weight as the host builds it from the two directions' weights. -/
def fusedW (x1 x5 : S400x904.Idx → EReal) : S904x768.Idx → EReal :=
  place (place (place (place (place (place zeros
    (startAt 0#32) (blockA x1)) (startAt 128#32) (blockB x1)) (startAt 256#32) (blockC x1))
    (startAt 384#32) (blockA x5)) (startAt 512#32) (blockB x5)) (startAt 640#32) (blockC x5)

/-- Narrowing a float format changes nothing on the extended reals. -/
theorem truncf_id {s : Shape} {φ ψ : FTy} (a : FVec Ideal s φ) (h : ψ.bits < φ.bits) : (truncf ψ a h : FVec Ideal s ψ) = a :=
  funext fun i => truncf_apply a h i

/-- Widening a float format changes nothing on the extended reals. -/
theorem extf_id {s : Shape} {φ ψ : FTy} (a : FVec Ideal s φ) (h : φ.bits < ψ.bits) : (extf ψ a h : FVec Ideal s ψ) = a :=
  funext fun i => extf_apply a h i

variable (m : (ℓ : Loc nD τ sig) → Buf (Elt Ideal) ℓ) (c : Dev nD)

set_option maxHeartbeats 4000000 in
/-- What the region finds in the array of the six writes. -/
theorem v24_eq : (V m c main_v24 : S904x768.Idx → EReal)
    = fusedW (m ((c : Thread nD τ).loc main_arg1)) (m ((c : Thread nD τ).loc main_arg5)) := by
  dsimp only [Gen.V, Gen.hostOps0]
  after_results_simp
  rfl

set_option maxHeartbeats 4000000 in
/-- The high half is the same array (the conversion is the identity on the extended reals). -/
theorem v66_eq : (V m c main_v66 : S904x768.Idx → EReal)
    = fusedW (m ((c : Thread nD τ).loc main_arg1)) (m ((c : Thread nD τ).loc main_arg5)) := by
  dsimp only [Gen.V, Gen.hostOps0]
  after_results_simp
  rw [truncf_id]
  rfl

/-! ## The six slots of the high half -/

/-- Slot 0: column 0 + j of the high half is row 0 + j of the forward weight. -/
theorem whi_0 (k : Fin 904) (j : Fin 100) :
    (V m c main_v66 : S904x768.Idx → EReal) (ix2 k ⟨j.val, by have := j.isLt; omega⟩)
      = (m ((c : Thread nD τ).loc main_arg1) : S400x904.Idx → EReal) (ix2 ⟨j.val, by have := j.isLt; omega⟩ k) := by
  rw [v66_eq m c]
  unfold fusedW
  refine (place_miss _ _ _ 640 (by decide) k _ (Or.inl (by show j.val < 640; have := j.isLt; omega))).trans ?_
  refine (place_miss _ _ _ 512 (by decide) k _ (Or.inl (by show j.val < 512; have := j.isLt; omega))).trans ?_
  refine (place_miss _ _ _ 384 (by decide) k _ (Or.inl (by show j.val < 384; have := j.isLt; omega))).trans ?_
  refine (place_miss _ _ _ 256 (by decide) k _ (Or.inl (by show j.val < 256; have := j.isLt; omega))).trans ?_
  refine (place_miss _ _ _ 128 (by decide) k _ (Or.inl (by show j.val < 128; have := j.isLt; omega))).trans ?_
  refine (place_hit _ _ _ 0 (by decide) k j _ (by show j.val = 0 + j.val; omega)).trans ?_
  exact blockA_apply _ k j

/-- Slot 1: column 128 + j of the high half is row 200 + j of the forward weight. -/
theorem whi_1 (k : Fin 904) (j : Fin 100) :
    (V m c main_v66 : S904x768.Idx → EReal) (ix2 k ⟨128 + j.val, by have := j.isLt; omega⟩)
      = (m ((c : Thread nD τ).loc main_arg1) : S400x904.Idx → EReal) (ix2 ⟨200 + j.val, by have := j.isLt; omega⟩ k) := by
  rw [v66_eq m c]
  unfold fusedW
  refine (place_miss _ _ _ 640 (by decide) k _ (Or.inl (by show 128 + j.val < 640; have := j.isLt; omega))).trans ?_
  refine (place_miss _ _ _ 512 (by decide) k _ (Or.inl (by show 128 + j.val < 512; have := j.isLt; omega))).trans ?_
  refine (place_miss _ _ _ 384 (by decide) k _ (Or.inl (by show 128 + j.val < 384; have := j.isLt; omega))).trans ?_
  refine (place_miss _ _ _ 256 (by decide) k _ (Or.inl (by show 128 + j.val < 256; have := j.isLt; omega))).trans ?_
  refine (place_hit _ _ _ 128 (by decide) k j _ (by show 128 + j.val = 128 + j.val; omega)).trans ?_
  exact blockB_apply _ k j

/-- Slot 2: column 256 + j of the high half is row 300 + j of the forward weight. -/
theorem whi_2 (k : Fin 904) (j : Fin 100) :
    (V m c main_v66 : S904x768.Idx → EReal) (ix2 k ⟨256 + j.val, by have := j.isLt; omega⟩)
      = (m ((c : Thread nD τ).loc main_arg1) : S400x904.Idx → EReal) (ix2 ⟨300 + j.val, by have := j.isLt; omega⟩ k) := by
  rw [v66_eq m c]
  unfold fusedW
  refine (place_miss _ _ _ 640 (by decide) k _ (Or.inl (by show 256 + j.val < 640; have := j.isLt; omega))).trans ?_
  refine (place_miss _ _ _ 512 (by decide) k _ (Or.inl (by show 256 + j.val < 512; have := j.isLt; omega))).trans ?_
  refine (place_miss _ _ _ 384 (by decide) k _ (Or.inl (by show 256 + j.val < 384; have := j.isLt; omega))).trans ?_
  refine (place_hit _ _ _ 256 (by decide) k j _ (by show 256 + j.val = 256 + j.val; omega)).trans ?_
  exact blockC_apply _ k j

/-- Slot 3: column 384 + j of the high half is row 0 + j of the backward weight. -/
theorem whi_3 (k : Fin 904) (j : Fin 100) :
    (V m c main_v66 : S904x768.Idx → EReal) (ix2 k ⟨384 + j.val, by have := j.isLt; omega⟩)
      = (m ((c : Thread nD τ).loc main_arg5) : S400x904.Idx → EReal) (ix2 ⟨j.val, by have := j.isLt; omega⟩ k) := by
  rw [v66_eq m c]
  unfold fusedW
  refine (place_miss _ _ _ 640 (by decide) k _ (Or.inl (by show 384 + j.val < 640; have := j.isLt; omega))).trans ?_
  refine (place_miss _ _ _ 512 (by decide) k _ (Or.inl (by show 384 + j.val < 512; have := j.isLt; omega))).trans ?_
  refine (place_hit _ _ _ 384 (by decide) k j _ (by show 384 + j.val = 384 + j.val; omega)).trans ?_
  exact blockA_apply _ k j

/-- Slot 4: column 512 + j of the high half is row 200 + j of the backward weight. -/
theorem whi_4 (k : Fin 904) (j : Fin 100) :
    (V m c main_v66 : S904x768.Idx → EReal) (ix2 k ⟨512 + j.val, by have := j.isLt; omega⟩)
      = (m ((c : Thread nD τ).loc main_arg5) : S400x904.Idx → EReal) (ix2 ⟨200 + j.val, by have := j.isLt; omega⟩ k) := by
  rw [v66_eq m c]
  unfold fusedW
  refine (place_miss _ _ _ 640 (by decide) k _ (Or.inl (by show 512 + j.val < 640; have := j.isLt; omega))).trans ?_
  refine (place_hit _ _ _ 512 (by decide) k j _ (by show 512 + j.val = 512 + j.val; omega)).trans ?_
  exact blockB_apply _ k j

/-- Slot 5: column 640 + j of the high half is row 300 + j of the backward weight. -/
theorem whi_5 (k : Fin 904) (j : Fin 100) :
    (V m c main_v66 : S904x768.Idx → EReal) (ix2 k ⟨640 + j.val, by have := j.isLt; omega⟩)
      = (m ((c : Thread nD τ).loc main_arg5) : S400x904.Idx → EReal) (ix2 ⟨300 + j.val, by have := j.isLt; omega⟩ k) := by
  rw [v66_eq m c]
  unfold fusedW
  refine (place_hit _ _ _ 640 (by decide) k j _ (by show 640 + j.val = 640 + j.val; omega)).trans ?_
  exact blockC_apply _ k j

/-! ## The low half -/

set_option maxHeartbeats 4000000 in
/-- The low half is the array minus its high half, entry by entry. -/
theorem wlo_eq (i : S904x768.Idx) (W : S904x768.Idx → EReal) (hW : (V m c main_v66 : S904x768.Idx → EReal) = W) :
    (V m c main_v69 : S904x768.Idx → EReal) i = W i - W i := by
  have e69 : (V m c main_v69 : S904x768.Idx → EReal)
      = fun i => fusedW (m ((c : Thread nD τ).loc main_arg1)) (m ((c : Thread nD τ).loc main_arg5)) i
          - fusedW (m ((c : Thread nD τ).loc main_arg1)) (m ((c : Thread nD τ).loc main_arg5)) i := by
    dsimp only [Gen.V, Gen.hostOps0]
    after_results_simp
    rw [truncf_id, extf_id, truncf_id]
    rfl
  subst hW
  rw [e69, v66_eq m c]

/-! ## The bias row

The bias is a 1 × 768 row of zeros into which six vectors of length 100 are written at the same column offsets:
entry 128 s + j holds entry g_s + j of the sum of the direction's two bias vectors. -/

theorem bias_0 (j : Fin 100) :
    (V m c main_v65 : S1x768.Idx → EReal) (ix2 (0 : Fin 1) ⟨j.val, by have := j.isLt; omega⟩)
      = Cert.Spec.biasAt (m ((c : Thread nD τ).loc main_arg3)) (m ((c : Thread nD τ).loc main_arg4)) ⟨j.val, by have := j.isLt; omega⟩ :=
  Cert.KernelIdeal.FusedB.bias_0 m c j
theorem bias_1 (j : Fin 100) :
    (V m c main_v65 : S1x768.Idx → EReal) (ix2 (0 : Fin 1) ⟨128 + j.val, by have := j.isLt; omega⟩)
      = Cert.Spec.biasAt (m ((c : Thread nD τ).loc main_arg3)) (m ((c : Thread nD τ).loc main_arg4)) ⟨200 + j.val, by have := j.isLt; omega⟩ :=
  Cert.KernelIdeal.FusedB.bias_1 m c j
theorem bias_2 (j : Fin 100) :
    (V m c main_v65 : S1x768.Idx → EReal) (ix2 (0 : Fin 1) ⟨256 + j.val, by have := j.isLt; omega⟩)
      = Cert.Spec.biasAt (m ((c : Thread nD τ).loc main_arg3)) (m ((c : Thread nD τ).loc main_arg4)) ⟨300 + j.val, by have := j.isLt; omega⟩ :=
  Cert.KernelIdeal.FusedB.bias_2 m c j
theorem bias_3 (j : Fin 100) :
    (V m c main_v65 : S1x768.Idx → EReal) (ix2 (0 : Fin 1) ⟨384 + j.val, by have := j.isLt; omega⟩)
      = Cert.Spec.biasAt (m ((c : Thread nD τ).loc main_arg7)) (m ((c : Thread nD τ).loc main_arg8)) ⟨j.val, by have := j.isLt; omega⟩ :=
  Cert.KernelIdeal.FusedB.bias_3 m c j
theorem bias_4 (j : Fin 100) :
    (V m c main_v65 : S1x768.Idx → EReal) (ix2 (0 : Fin 1) ⟨512 + j.val, by have := j.isLt; omega⟩)
      = Cert.Spec.biasAt (m ((c : Thread nD τ).loc main_arg7)) (m ((c : Thread nD τ).loc main_arg8)) ⟨200 + j.val, by have := j.isLt; omega⟩ :=
  Cert.KernelIdeal.FusedB.bias_4 m c j
theorem bias_5 (j : Fin 100) :
    (V m c main_v65 : S1x768.Idx → EReal) (ix2 (0 : Fin 1) ⟨640 + j.val, by have := j.isLt; omega⟩)
      = Cert.Spec.biasAt (m ((c : Thread nD τ).loc main_arg7)) (m ((c : Thread nD τ).loc main_arg8)) ⟨300 + j.val, by have := j.isLt; omega⟩ :=
  Cert.KernelIdeal.FusedB.bias_5 m c j

end Cert.KernelIdeal.Fused

end
-- ==== Proof.Blocks.lean ====
/-
  From blocks to the array.

  Grid point t stages rows [2048 t, 2048 t + 2048) of the input and the whole fused weight, low weight and bias
  arrays, and writes back rows [2048 t, 2048 t + 2048) of the result.  Entry (p, q) of what it writes back is the
  specification at (2048 t + p, q): the fused pre-activations collapse to the gate pre-activations column by
  column, slot by slot.  The 64 row blocks tile the result, so the whole array is the specification.
-/
import proofs.«156096_j54924041781763_2_alg».proof.Proof.Gen.KernelIdeal.Value
import proofs.«156096_j54924041781763_2_alg».proof.Proof.Collapse
import proofs.«156096_j54924041781763_2_alg».proof.Proof.FusedOperands
import Idealize.ShloMosaic.Lib.Pipeline.Value

set_option maxRecDepth 16384

noncomputable section

open scoped BigOperators

namespace Cert.KernelIdeal.Blocks

open Cert.KernelIdeal Cert.KernelIdeal.Gen Cert.KernelIdeal.Value Cert.KernelIdeal.Body Cert.KernelIdeal.Fused
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification at device `c`'s argument arrays. -/
abbrev spec (c : Dev nD) : S131072x200.Idx → EReal :=
  Cert.Spec.G (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8))

/-- The three argument arrays whose entries are cancelled against themselves hold finite numbers. -/
def Finite (c : Dev nD) : Prop :=
  Cert.Spec.AllFinite (s := S131072x904) (m ((c : Thread nD τ).loc main_arg0))
  ∧ Cert.Spec.AllFinite (s := S400x904) (m ((c : Thread nD τ).loc main_arg1))
  ∧ Cert.Spec.AllFinite (s := S400x904) (m ((c : Thread nD τ).loc main_arg5))

/-- The printed index maps over the 64 grid points: the input and the result move one row block per point, the
    weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (p : Fin 2048) : t.val * 2048 + p.val < 131072 := by
  have h1 : t.val < 64 := t.isLt
  have h2 := p.isLt
  omega

/-- The input block at point `t` is rows [2048 t, 2048 t + 2048) of the input array. -/
theorem in_block (c : Dev nD) (t : Fin cfg0.N) (p : Fin 2048) (k : Fin 904) :
    (iblk m c 0 t (ix2 p k) : EReal) = (m ((c : Thread nD τ).loc main_arg0)) (ix2 ⟨t.val * 2048 + p.val, row_lt t p⟩ k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 904 + 1 * k.val = k.val; omega

/-- The high weight block at every point is the whole fused weight array. -/
theorem whi_block (c : Dev nD) (t : Fin cfg0.N) (k : Fin 904) (col : Fin 768) :
    (iblk m c 1 t (ix2 k col) : EReal) = (V m c main_v66 : S904x768.Idx → EReal) (ix2 k col) := by
  show V m c main_v66 (((cfg0.win 1).blk t).view.emb (ix2 k col)) = _
  obtain ⟨-, -, e0, e1, -⟩ := idx_facts t
  refine congrArg _ (funext fun a => Fin.ext ?_)
  match a with
  | ⟨0, _⟩ => show win0_1.index t (0 : Fin 2) * 904 + 1 * k.val = k.val; omega
  | ⟨1, _⟩ => show win0_1.index t (1 : Fin 2) * 768 + 1 * col.val = col.val; omega

/-- The low weight block at every point is the whole low weight array. -/
theorem wlo_block (c : Dev nD) (t : Fin cfg0.N) (k : Fin 904) (col : Fin 768) :
    (iblk m c 2 t (ix2 k col) : EReal) = (V m c main_v69 : S904x768.Idx → EReal) (ix2 k col) := by
  show V m c main_v69 (((cfg0.win 2).blk t).view.emb (ix2 k col)) = _
  obtain ⟨-, -, -, -, e0, e1, -⟩ := idx_facts t
  refine congrArg _ (funext fun a => Fin.ext ?_)
  match a with
  | ⟨0, _⟩ => show win0_2.index t (0 : Fin 2) * 904 + 1 * k.val = k.val; omega
  | ⟨1, _⟩ => show win0_2.index t (1 : Fin 2) * 768 + 1 * col.val = col.val; omega

/-- The bias block at every point is the whole bias row. -/
theorem bias_block (c : Dev nD) (t : Fin cfg0.N) (col : Fin 768) :
    (iblk m c 3 t (ix2 (0 : Fin 1) col) : EReal) = (V m c main_v65 : S1x768.Idx → EReal) (ix2 (0 : Fin 1) col) := by
  show V m c main_v65 (((cfg0.win 3).blk t).view.emb (ix2 (0 : Fin 1) col)) = _
  obtain ⟨-, -, -, -, -, -, e0, e1, -⟩ := idx_facts t
  refine congrArg _ (funext fun a => Fin.ext ?_)
  match a with
  | ⟨0, _⟩ => show win0_3.index t (0 : Fin 2) * 1 + 1 * 0 = 0; omega
  | ⟨1, _⟩ => show win0_3.index t (1 : Fin 2) * 768 + 1 * col.val = col.val; omega

/-- The result block at point `t` sits at rows [2048 t, 2048 t + 2048) of the result array. -/
theorem out_emb (t : Fin cfg0.N) (p : Fin 2048) (q : Fin 200) :
    ((cfg0.win 4).blk t).view.emb (ix2 p q) = (ix2 ⟨t.val * 2048 + p.val, row_lt t p⟩ q : S131072x200.Idx) := by
  obtain ⟨-, -, -, -, -, -, -, -, e0, e1⟩ := idx_facts t
  refine funext fun a => Fin.ext ?_
  match a with
  | ⟨0, _⟩ => show win0_4.index t (0 : Fin 2) * 2048 + 1 * p.val = t.val * 2048 + p.val; omega
  | ⟨1, _⟩ => show win0_4.index t (1 : Fin 2) * 200 + 1 * q.val = q.val; omega

/-- One slot's column of fused pre-activations at point `t` is a gate row's pre-activation: the slot's column of the
    fused weight is a finite gate row `row` of the weight `w`, and the bias row's entry there the sum of the two biases. -/
theorem pre_slot (c : Dev nD) (t : Fin cfg0.N) (p : Fin 2048) (col : Fin 768) (row : Fin 400)
    (w : S400x904.Idx → EReal) (b1 b2 : S400.Idx → EReal)
    (hw : ∀ k : Fin 904, (V m c main_v66 : S904x768.Idx → EReal) (ix2 k col) = w (ix2 row k))
    (hb : (V m c main_v65 : S1x768.Idx → EReal) (ix2 (0 : Fin 1) col) = Cert.Spec.biasAt b1 b2 row)
    (hX : Cert.Spec.AllFinite (s := S131072x904) (m ((c : Thread nD τ).loc main_arg0)))
    (hwf : Cert.Spec.AllFinite w) :
    pre (iblk m c 0 t) (iblk m c 1 t) (iblk m c 2 t) (iblk m c 3 t) p col
      = Cert.Spec.gate (m ((c : Thread nD τ).loc main_arg0)) w b1 b2 ⟨t.val * 2048 + p.val, row_lt t p⟩ row :=
  pre_eq_gate (iblk m c 0 t) (iblk m c 1 t) (iblk m c 2 t) (iblk m c 3 t) (m ((c : Thread nD τ).loc main_arg0)) w b1 b2 p
    ⟨t.val * 2048 + p.val, row_lt t p⟩ col row
    (fun k => in_block m c t p k)
    (fun k => (whi_block m c t k col).trans (hw k))
    (fun k => (wlo_block m c t k col).trans ((wlo_eq m c (ix2 k col) _ rfl).trans (by rw [whi_block m c t k col])))
    ((bias_block m c t col).trans hb)
    hX hwf

/-- The specification at a forward column. -/
theorem spec_fwd (c : Dev nD) (R : Fin 131072) (j : Fin 100) :
    spec m c (ix2 R ⟨j.val, by have := j.isLt; omega⟩)
      = Cert.Spec.hidden (m ((c : Thread nD τ).loc main_arg0)) (m ((c : Thread nD τ).loc main_arg1)) (m ((c : Thread nD τ).loc main_arg3)) (m ((c : Thread nD τ).loc main_arg4)) R j := by
  unfold spec Cert.Spec.G
  rw [dif_pos (show ((ix2 R (⟨j.val, by have := j.isLt; omega⟩ : Fin 200) : S131072x200.Idx) 1).val < 100 from j.isLt)]

/-- The specification at a backward column. -/
theorem spec_bwd (c : Dev nD) (R : Fin 131072) (j : Fin 100) :
    spec m c (ix2 R ⟨100 + j.val, by have := j.isLt; omega⟩)
      = Cert.Spec.hidden (m ((c : Thread nD τ).loc main_arg0)) (m ((c : Thread nD τ).loc main_arg5)) (m ((c : Thread nD τ).loc main_arg7)) (m ((c : Thread nD τ).loc main_arg8)) R j := by
  unfold spec Cert.Spec.G
  rw [dif_neg (show ¬ ((ix2 R (⟨100 + j.val, by have := j.isLt; omega⟩ : Fin 200) : S131072x200.Idx) 1).val < 100 from by
    show ¬ (100 + j.val < 100); omega)]
  exact congrArg (Cert.Spec.hidden _ _ _ _ R) (Fin.ext (by show 100 + j.val - 100 = j.val; omega))

theorem fwd_lt (j : Fin 100) : j.val < 200 := by have := j.isLt; omega
theorem bwd_lt (j : Fin 100) : 100 + j.val < 200 := by have := j.isLt; omega

/-- WHAT POINT `t` WRITES BACK is block `t` of the specification. -/
theorem flushed_eq (c : Dev nD) (hF : Finite m c) (t : Fin cfg0.N) :
    (dats m 0 c).flushed 4 t = ((cfg0.win 4).blk t).view.read (Elt Ideal) (spec m c) := by
  obtain ⟨hX, hwf, hwb⟩ := hF
  rw [flushed4]
  unfold out0_4
  rw [View.canon_unit_zero hz]
  simp only [View.ld_unit_zero (S := S2048x904) hz, View.ld_unit_zero (S := S904x768) hz, View.ld_unit_zero (S := S1x768) hz]
  funext y
  obtain ⟨p, q, rfl⟩ : ∃ (p : Fin 2048) (q : Fin 200), y = ix2 p q := ⟨y 0, y 1, eq_ix2 y⟩
  show k0_pay1 (iblk m c 0 t) (iblk m c 1 t) (iblk m c 2 t) (iblk m c 3 t) (ix2 p q) = spec m c (((cfg0.win 4).blk t).view.emb (ix2 p q))
  rw [out_emb t p q]
  by_cases hq : q.val < 100
  · obtain ⟨j, rfl⟩ : ∃ j : Fin 100, q = ⟨j.val, fwd_lt j⟩ := ⟨⟨q.val, hq⟩, rfl⟩
    refine (pay_fwd (iblk m c 0 t) (iblk m c 1 t) (iblk m c 2 t) (iblk m c 3 t) p j).trans ?_
    rw [spec_fwd m c _ j]
    unfold Cert.Spec.hidden
    rw [pre_slot m c t p _ ⟨300 + j.val, by have := j.isLt; omega⟩ _ _ _ (fun k => whi_2 m c k j) (bias_2 m c j) hX hwf,
      pre_slot m c t p _ ⟨j.val, by have := j.isLt; omega⟩ _ _ _ (fun k => whi_0 m c k j) (bias_0 m c j) hX hwf,
      pre_slot m c t p _ ⟨200 + j.val, by have := j.isLt; omega⟩ _ _ _ (fun k => whi_1 m c k j) (bias_1 m c j) hX hwf]
  · obtain ⟨j, rfl⟩ : ∃ j : Fin 100, q = ⟨100 + j.val, bwd_lt j⟩ :=
      ⟨⟨q.val - 100, by have := q.isLt; omega⟩, Fin.ext (by show q.val = 100 + (q.val - 100); omega)⟩
    refine (pay_bwd (iblk m c 0 t) (iblk m c 1 t) (iblk m c 2 t) (iblk m c 3 t) p j).trans ?_
    rw [spec_bwd m c _ j]
    unfold Cert.Spec.hidden
    rw [pre_slot m c t p _ ⟨300 + j.val, by have := j.isLt; omega⟩ _ _ _ (fun k => whi_5 m c k j) (bias_5 m c j) hX hwb,
      pre_slot m c t p _ ⟨j.val, by have := j.isLt; omega⟩ _ _ _ (fun k => whi_3 m c k j) (bias_3 m c j) hX hwb,
      pre_slot m c t p _ ⟨200 + j.val, by have := j.isLt; omega⟩ _ _ _ (fun k => whi_4 m c k j) (bias_4 m c j) hX hwb]

/-- An index of the result array is in point `t`'s block iff each coordinate is in the block's range on its axis. -/
theorem mem_blk (t : Fin cfg0.N) (i : S131072x200.Idx) :
    i ∈ ((cfg0.win 4).blk t).view.set ↔ ∀ a : Fin 2, win0_4.index t a * S2048x200.size a ≤ (i a).val ∧ (i a).val < win0_4.index t a * S2048x200.size a + S2048x200.size a := by
  show i ∈ ((View.whole main_v70).slice (win0_4.rect t)).set ↔ _
  rw [View.set_slice_whole, Rect.mem_set_unit]
  exact Iff.rfl

/-- Every index of the result is in the block of the point its row falls in. -/
theorem cover (i : S131072x200.Idx) : ∃ t : Fin cfg0.N, (cfg0.win 4).flush t = true ∧ i ∈ ((cfg0.win 4).blk t).view.set := by
  have hi0 : (i 0).val < 131072 := (i 0).isLt
  have hi1 : (i 1).val < 200 := (i 1).isLt
  refine ⟨⟨(i 0).val / 2048, by show (i 0).val / 2048 < 64; omega⟩, flush0_4 _, ?_⟩
  rw [mem_blk]
  obtain ⟨-, -, -, -, -, -, -, -, e0, e1⟩ := idx_facts ⟨(i 0).val / 2048, by show (i 0).val / 2048 < 64; omega⟩
  intro a
  match a with
  | ⟨0, _⟩ =>
    show win0_4.index _ (0 : Fin 2) * 2048 ≤ (i 0).val ∧ (i 0).val < win0_4.index _ (0 : Fin 2) * 2048 + 2048
    rw [e0]; show (i 0).val / 2048 * 2048 ≤ (i 0).val ∧ (i 0).val < (i 0).val / 2048 * 2048 + 2048; omega
  | ⟨1, _⟩ =>
    show win0_4.index _ (1 : Fin 2) * 200 ≤ (i 1).val ∧ (i 1).val < win0_4.index _ (1 : Fin 2) * 200 + 200
    rw [e1]; omega

/-- THE ARRAY after the run is the specification. -/
theorem final (c : Dev nD) (hF : Finite m c) : (dats m 0 c).arrAt 4 cfg0.N = spec m c :=
  (dats m 0 c).arrAt_eq_of_cover 4 (spec m c) (fun t _ => flushed_eq m c hF t) cover

end Cert.KernelIdeal.Blocks

end
-- ==== Proof.RefSide.lean ====
/-
  The reference side: the host program's result, read index by index, is the specification G of its arguments.

  For one direction the program forms the gate array  (x · wᵀ + b₁) + b₂  of shape 131072 × 400: entry (r, q) is the
  sum over k < 904 of x(r, k) · w(q, k), plus b₁(q), plus b₂(q) — the transposed weight read at (k, q) is w(q, k), and
  a bias broadcast along the rows reads its q-th entry.  It then cuts the columns [0,100), [200,300), [300,400) out of
  that array (the input, cell and output gates; the forget gate's columns [100,200) are never used), and writes
  1 / (1 + e^(−z)) for the sigmoid of z, with the literal 1.0.  On the extended reals 1 / (1 + e^(−z)) is the logistic
  function by definition, so one direction's value at (r, j) is

      logistic(gate(r, 300 + j)) · tanh( logistic(gate(r, j)) · tanh(gate(r, 200 + j)) ).

  The result joins the forward direction's 100 columns with the backward direction's along the second axis: column
  q < 100 reads the forward value at q, column q ≥ 100 the backward value at q − 100.
-/
import proofs.«156096_j54924041781763_2_alg».proof.Proof.Gen.ReferenceIdeal.Read
import proofs.«156096_j54924041781763_2_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- Forward direction: the gate array at (r, q) is the gate pre-activation of row r against gate row q. -/
theorem gate_fwd (x0 : (⟨S131072x904, .f32⟩ : BufTy).Contents (Elt Ideal)) (x1 : (⟨S400x904, .f32⟩ : BufTy).Contents (Elt Ideal))
    (x3 x4 : (⟨S400, .f32⟩ : BufTy).Contents (Elt Ideal)) (r : Fin 131072) (q : Fin 400) :
    Read.val_main_v7 (F := Ideal) x0 x1 x3 x4 (ix2 r q) = Cert.Spec.gate x0 x1 x3 x4 r q := by
  rw [val_main_v7_apply, val_main_v4_apply, val_main_v1_apply, val_main_v3_apply, val_main_v2_apply,
    val_main_v6_apply, val_main_v5_apply]
  simp only [val_main_v0_apply]
  have e1 : ∀ k : Fin 904, lidx_main_v1 (ix2 r q) k = ix2 r k := fun k =>
    funext fun a => Fin.ext (by match a with | ⟨0, _⟩ => rfl | ⟨1, _⟩ => rfl)
  have e2 : ∀ k : Fin 904, idx_main_v0 (ridx_main_v1 (ix2 r q) k) = ix2 q k := fun k =>
    funext fun a => Fin.ext (by match a with | ⟨0, _⟩ => rfl | ⟨1, _⟩ => rfl)
  have e3 : idx_main_v2 (idx_main_v3 (ix2 r q)) = ix1 q :=
    funext fun a => Fin.ext (by match a with | ⟨0, _⟩ => rfl)
  have e4 : idx_main_v5 (idx_main_v6 (ix2 r q)) = ix1 q :=
    funext fun a => Fin.ext (by match a with | ⟨0, _⟩ => rfl)
  simp only [e1, e2, e3, e4, Ideal.addf_def]
  rfl

/-- Forward direction: the hidden array at (r, j) is the specification's hidden value; the three sigmoids are the
    logistic function because the literal is one. -/
theorem hidden_fwd (x0 : (⟨S131072x904, .f32⟩ : BufTy).Contents (Elt Ideal)) (x1 : (⟨S400x904, .f32⟩ : BufTy).Contents (Elt Ideal))
    (x3 x4 : (⟨S400, .f32⟩ : BufTy).Contents (Elt Ideal)) (r : Fin 131072) (j : Fin 100) :
    Read.val_main_v27 (F := Ideal) x0 x1 x3 x4 (ix2 r j) = Cert.Spec.hidden x0 x1 x3 x4 r j := by
  rw [val_main_v27_apply, val_main_v24_apply, val_main_v23_apply, val_main_cst_2_apply, val_main_v22_apply,
    val_main_v21_apply, val_main_cst_1_apply, val_main_v20_apply, val_main_v19_apply, val_main_v11_apply,
    val_main_v26_apply, val_main_v25_apply, val_main_v17_apply, val_main_v16_apply, val_main_cst_0_apply,
    val_main_v15_apply, val_main_v14_apply, val_main_cst_apply, val_main_v13_apply, val_main_v12_apply,
    val_main_v8_apply, val_main_v18_apply, val_main_v10_apply]
  have eo : idx_main_v11 (ix2 r j) = ix2 r (⟨300 + j.val, by omega⟩ : Fin 400) :=
    funext fun a => Fin.ext (by match a with | ⟨0, _⟩ => rfl | ⟨1, _⟩ => rfl)
  have ei : idx_main_v8 (ix2 r j) = ix2 r (⟨j.val, by omega⟩ : Fin 400) :=
    funext fun a => Fin.ext (by match a with | ⟨0, _⟩ => rfl | ⟨1, _⟩ => rfl)
  have eg : idx_main_v10 (ix2 r j) = ix2 r (⟨200 + j.val, by omega⟩ : Fin 400) :=
    funext fun a => Fin.ext (by match a with | ⟨0, _⟩ => rfl | ⟨1, _⟩ => rfl)
  rw [eo, ei, eg, gate_fwd, gate_fwd, gate_fwd]
  simp only [Ideal.mulf_def, Ideal.hostDivf_def, Ideal.addf_def, Ideal.hostUnary_exp_def, Ideal.hostUnary_tanh_def,
    Ideal.hostNegf_def, Ideal.negf_def, Ideal.ofBits_def, Ideal.ofBits_one_f32]
  rfl

/-- Backward direction: the gate array at (r, q). -/
theorem gate_bwd (x0 : (⟨S131072x904, .f32⟩ : BufTy).Contents (Elt Ideal)) (x5 : (⟨S400x904, .f32⟩ : BufTy).Contents (Elt Ideal))
    (x7 x8 : (⟨S400, .f32⟩ : BufTy).Contents (Elt Ideal)) (r : Fin 131072) (q : Fin 400) :
    Read.val_main_v35 (F := Ideal) x0 x5 x7 x8 (ix2 r q) = Cert.Spec.gate x0 x5 x7 x8 r q := by
  rw [val_main_v35_apply, val_main_v32_apply, val_main_v29_apply, val_main_v31_apply, val_main_v30_apply,
    val_main_v34_apply, val_main_v33_apply]
  simp only [val_main_v28_apply]
  have e1 : ∀ k : Fin 904, lidx_main_v29 (ix2 r q) k = ix2 r k := fun k =>
    funext fun a => Fin.ext (by match a with | ⟨0, _⟩ => rfl | ⟨1, _⟩ => rfl)
  have e2 : ∀ k : Fin 904, idx_main_v28 (ridx_main_v29 (ix2 r q) k) = ix2 q k := fun k =>
    funext fun a => Fin.ext (by match a with | ⟨0, _⟩ => rfl | ⟨1, _⟩ => rfl)
  have e3 : idx_main_v30 (idx_main_v31 (ix2 r q)) = ix1 q :=
    funext fun a => Fin.ext (by match a with | ⟨0, _⟩ => rfl)
  have e4 : idx_main_v33 (idx_main_v34 (ix2 r q)) = ix1 q :=
    funext fun a => Fin.ext (by match a with | ⟨0, _⟩ => rfl)
  simp only [e1, e2, e3, e4, Ideal.addf_def]
  rfl

/-- Backward direction: the hidden array at (r, j). -/
theorem hidden_bwd (x0 : (⟨S131072x904, .f32⟩ : BufTy).Contents (Elt Ideal)) (x5 : (⟨S400x904, .f32⟩ : BufTy).Contents (Elt Ideal))
    (x7 x8 : (⟨S400, .f32⟩ : BufTy).Contents (Elt Ideal)) (r : Fin 131072) (j : Fin 100) :
    Read.val_main_v55 (F := Ideal) x0 x5 x7 x8 (ix2 r j) = Cert.Spec.hidden x0 x5 x7 x8 r j := by
  rw [val_main_v55_apply, val_main_v52_apply, val_main_v51_apply, val_main_cst_6_apply, val_main_v50_apply,
    val_main_v49_apply, val_main_cst_5_apply, val_main_v48_apply, val_main_v47_apply, val_main_v39_apply,
    val_main_v54_apply, val_main_v53_apply, val_main_v45_apply, val_main_v44_apply, val_main_cst_4_apply,
    val_main_v43_apply, val_main_v42_apply, val_main_cst_3_apply, val_main_v41_apply, val_main_v40_apply,
    val_main_v36_apply, val_main_v46_apply, val_main_v38_apply]
  have eo : idx_main_v39 (ix2 r j) = ix2 r (⟨300 + j.val, by omega⟩ : Fin 400) :=
    funext fun a => Fin.ext (by match a with | ⟨0, _⟩ => rfl | ⟨1, _⟩ => rfl)
  have ei : idx_main_v36 (ix2 r j) = ix2 r (⟨j.val, by omega⟩ : Fin 400) :=
    funext fun a => Fin.ext (by match a with | ⟨0, _⟩ => rfl | ⟨1, _⟩ => rfl)
  have eg : idx_main_v38 (ix2 r j) = ix2 r (⟨200 + j.val, by omega⟩ : Fin 400) :=
    funext fun a => Fin.ext (by match a with | ⟨0, _⟩ => rfl | ⟨1, _⟩ => rfl)
  rw [eo, ei, eg, gate_bwd, gate_bwd, gate_bwd]
  simp only [Ideal.mulf_def, Ideal.hostDivf_def, Ideal.addf_def, Ideal.hostUnary_exp_def, Ideal.hostUnary_tanh_def,
    Ideal.hostNegf_def, Ideal.negf_def, Ideal.ofBits_def, Ideal.ofBits_one_f32]
  rfl

/-- The joined result is G: a column below 100 lies in the first piece, any other column q in the second at q − 100. -/
theorem ref_is_G (x0 : (⟨S131072x904, .f32⟩ : BufTy).Contents (Elt Ideal)) (x1 : (⟨S400x904, .f32⟩ : BufTy).Contents (Elt Ideal))
    (x3 x4 : (⟨S400, .f32⟩ : BufTy).Contents (Elt Ideal)) (x5 : (⟨S400x904, .f32⟩ : BufTy).Contents (Elt Ideal))
    (x7 x8 : (⟨S400, .f32⟩ : BufTy).Contents (Elt Ideal)) :
    Read.val_main_v56 (F := Ideal) x0 x1 x3 x4 x5 x7 x8 = Cert.Spec.G x0 x1 x3 x4 x5 x7 x8 := by
  funext i
  obtain ⟨r, q, rfl⟩ : ∃ (r : Fin 131072) (q : Fin 200), i = ix2 r q := ⟨i 0, i 1, eq_ix2 i⟩
  unfold val_main_v56
  by_cases hq : q.val < 100
  · refine (concatenate_pair_apply_left (1 : Fin S131072x200.rank) _ _ concatenates_S131072x100_S131072x100_S131072x200_d1
      (ix2 r q) rfl (ix2 r (⟨q.val, hq⟩ : Fin 100)) (fun b => by match b with | ⟨0, _⟩ => rfl | ⟨1, _⟩ => rfl)).trans ?_
    rw [hidden_fwd]
    unfold Cert.Spec.G
    rw [dif_pos (show ((ix2 r q : (⟨2, ![131072, 200]⟩ : Shape).Idx) 1).val < 100 from hq)]
  · refine (concatenate_pair_apply_right (1 : Fin S131072x200.rank) _ _ concatenates_S131072x100_S131072x100_S131072x200_d1
      (ix2 r q) rfl rfl (ix2 r (⟨q.val - 100, by omega⟩ : Fin 100))
      (fun b hb => by match b with | ⟨0, _⟩ => rfl | ⟨1, _⟩ => exact absurd rfl hb)
      (by show q.val - 100 + 100 = q.val; omega)).trans ?_
    rw [hidden_bwd]
    unfold Cert.Spec.G
    rw [dif_neg (show ¬ ((ix2 r q : (⟨2, ![131072, 200]⟩ : Shape).Idx) 1).val < 100 from hq)]

end Cert.ReferenceIdeal.RefValue

end
-- ==== Proof.FiniteInputs.lean ====
/-
  Finite inputs.  The precondition is the conjunction, over the nine argument arrays, of "every entry x satisfies
  |x| < +∞".  On the extended reals |x| is max(x, −x), and max(x, −x) < ⊤ rules out both x = ⊤ and x = ⊥ (whose
  negation is ⊤), so an entry passing the test is a real number.  A conjunction that is true has every conjunct true,
  and an "all" over an array that is true holds at every index; read at the input, the forward weight and the backward
  weight this gives the three facts below.
-/
import proofs.«156096_j54924041781763_2_alg».proof.Pre_finite_inputs
import proofs.«156096_j54924041781763_2_alg».proof.Proof.Gen.Pre_finite_inputs
import Idealize.ShloMosaic.Lib.ReduceAll
import Idealize.ShloMosaic.Lib.ValueIdx
import Idealize.ShloMosaic.Lib.IdealHost

noncomputable section

namespace Cert.FiniteInputs

open Idealize.ShloMosaic Idealize.ShloMosaic.ValueIdx

/-- The scalar shape has one index. -/
instance : Subsingleton Cert.Pre_finite_inputs.S_.Idx := ⟨fun a b => funext fun d => d.elim0⟩

/-- An extended real whose absolute value is below +∞ is neither infinity. -/
theorem finite_of_abs_lt (x : EReal)
    (h : Ideal.cmp .olt (max x (-x)) (Ideal.ofBits .f32 0x7F800000#32) = 1#1) : x ≠ ⊤ ∧ x ≠ ⊥ := by
  have top : Ideal.ofBits .f32 0x7F800000#32 = (⊤ : EReal) := by simp [Ideal.ofBits, Ideal.ieee]
  rw [top] at h
  induction x using EReal.rec with
  | bot => simp [Ideal.cmp] at h
  | coe r => exact ⟨EReal.coe_ne_top r, EReal.coe_ne_bot r⟩
  | top => simp [Ideal.cmp] at h

/-- If the conjunction over all entries of "|a| < +∞" came out true, every entry of `a` is a real number. -/
theorem all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : Cert.Pre_finite_inputs.S_.Idx → BitVec 1)
    (e : Host.reduce IntOp.andi
        (cmpf .olt (Host.absf a) (broadcastInDim s ![] hb (constant Cert.Pre_finite_inputs.S_ .f32 0x7F800000#32)))
        init hr hu ix0 = 1#1) (i : s.Idx) : a i ≠ ⊤ ∧ a i ≠ ⊥ := by
  have hi := Host.reduce_andi_all _ init hr hu ix0 e i
  rw [cmpf_apply, broadcastInDim_scalar_apply] at hi
  exact finite_of_abs_lt (a i) hi

/-- The precondition makes the input and both directions' input weights finite. -/
theorem fn_finite [Cert.Pre_finite_inputs.Facts] (a0 : FVec Ideal Cert.Pre_finite_inputs.S131072x904 .f32) (a1 : FVec Ideal Cert.Pre_finite_inputs.S400x904 .f32) (a2 : FVec Ideal Cert.Pre_finite_inputs.S400x100 .f32) (a3 a4 : FVec Ideal Cert.Pre_finite_inputs.S400 .f32) (a5 : FVec Ideal Cert.Pre_finite_inputs.S400x904 .f32) (a6 : FVec Ideal Cert.Pre_finite_inputs.S400x100 .f32) (a7 a8 : FVec Ideal Cert.Pre_finite_inputs.S400 .f32)
    (h : Cert.Pre_finite_inputs.fn (F := Ideal) a0 a1 a2 a3 a4 a5 a6 a7 a8 = fun _ => 1#1) :
    (∀ i, a0 i ≠ ⊤ ∧ a0 i ≠ ⊥) ∧ (∀ i, a1 i ≠ ⊤ ∧ a1 i ≠ ⊥) ∧ (∀ i, a5 i ≠ ⊤ ∧ a5 i ≠ ⊥) := by
  have h0 := congrFun h ValueIdx.ix0
  dsimp only [Cert.Pre_finite_inputs.fn, Cert.Pre_finite_inputs.fn_part1, Cert.Pre_finite_inputs.fn_part2] at h0
  have A : ∀ (c d : IVec Cert.Pre_finite_inputs.S_ 1), andi c d ix0 = 1#1 → c ix0 = 1#1 ∧ d ix0 = 1#1 :=
    fun c d e => IntOp.andi_eq_one.1 e
  obtain ⟨h1, _⟩ := A _ _ h0
  obtain ⟨h2, _⟩ := A _ _ h1
  obtain ⟨h3, _⟩ := A _ _ h2
  obtain ⟨h4, e5⟩ := A _ _ h3
  obtain ⟨h5, _⟩ := A _ _ h4
  obtain ⟨h6, _⟩ := A _ _ h5
  obtain ⟨h7, _⟩ := A _ _ h6
  obtain ⟨e0, e1⟩ := A _ _ h7
  exact ⟨all_finite a0 _ _ _ _ e0, all_finite a1 _ _ _ _ e1, all_finite a5 _ _ _ _ e5⟩

end Cert.FiniteInputs

end
-- ==== Proof.lean ====
/-
  The certificate's claims, assembled.

  Both idealized programs compute, at every row r and column c of the result, one bidirectional LSTM step from the
  zero state (the specification Cert.Spec.G): the kernel through a fused, slot-padded weight split into a high and a
  low part (the low parts vanish on finite inputs), the reference gate by gate.  The kernel's run is read block by
  block off its frame run and the 64 row blocks tile the result; the reference's run is read one host operation at a
  time.  The three frames are the generated ones (the reference's is its run with the result dropped), and the one
  idealization rewrite — a narrowing to bf16 followed by the widening back is the identity on extended reals — is the
  rule's statement.
-/
import proofs.«156096_j54924041781763_2_alg».proof.Defs
import proofs.«156096_j54924041781763_2_alg».proof.Proof.Gen.Kernel
import proofs.«156096_j54924041781763_2_alg».proof.Proof.Gen.Kernel.Skeleton
import proofs.«156096_j54924041781763_2_alg».proof.Proof.Gen.Kernel.Launch
import proofs.«156096_j54924041781763_2_alg».proof.Proof.Gen.Kernel.Points
import proofs.«156096_j54924041781763_2_alg».proof.Proof.Gen.Kernel.Frame
import proofs.«156096_j54924041781763_2_alg».proof.Proof.Gen.KernelIdeal
import proofs.«156096_j54924041781763_2_alg».proof.Proof.Gen.KernelIdeal.Skeleton
import proofs.«156096_j54924041781763_2_alg».proof.Proof.Gen.KernelIdeal.Launch
import proofs.«156096_j54924041781763_2_alg».proof.Proof.Gen.KernelIdeal.Points
import proofs.«156096_j54924041781763_2_alg».proof.Proof.Gen.KernelIdeal.Frame
import proofs.«156096_j54924041781763_2_alg».proof.Proof.Gen.ReferenceIdeal
import proofs.«156096_j54924041781763_2_alg».proof.Proof.Gen.Pre_finite_inputs
import proofs.«156096_j54924041781763_2_alg».proof.Proof.Gen.KernelIdeal.Value
import proofs.«156096_j54924041781763_2_alg».proof.Proof.Gen.ReferenceIdeal.Run
import proofs.«156096_j54924041781763_2_alg».proof.Proof.Gen.ReferenceIdeal.Read
import proofs.«156096_j54924041781763_2_alg».proof.Proof.Blocks
import proofs.«156096_j54924041781763_2_alg».proof.Proof.RefSide
import proofs.«156096_j54924041781763_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening back a value narrowed to bf16 is the identity at the ideal
    instance, and the rounding through bf16 at the word level. -/
theorem preserves : Cert.preserves_Kernel_KernelIdeal :=
  IdealRules.truncf_extf.statement Cert.KernelIdeal.S2048x904 .f32 .bf16

/-- Under the precondition the three arrays whose entries the kernel cancels against themselves are finite. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Blocks.Finite m c :=
  Cert.FiniteInputs.fn_finite _ _ _ _ _ _ _ _ _ (hpre c)

/-- Both runs end at the specification of their (agreeing) arguments. -/
theorem algebraic : Cert.algebraic_KernelIdeal_ReferenceIdeal := by
  intro m ρ m' ρ' hpre hagree
  refine ⟨fun c => Cert.KernelIdeal.Blocks.spec m c, ?_, ?_⟩
  · exact (θ_run Cert.KernelIdeal.defs _ _).mono
      (fun r h c => ⟨(h c).1.trans (Cert.KernelIdeal.Blocks.final m c (finite_of_pre m hpre c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v56_eq, Cert.ReferenceIdeal.RefValue.ref_is_G,
      (hagree c).1, (hagree c).2.1, (hagree c).2.2.2.1, (hagree c).2.2.2.2.1, (hagree c).2.2.2.2.2.1,
      (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
